-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v76)) (v2 : (c : Dev Cert.KernelIdeal.nD) → Buf (Elt Ideal) ((c.tc : Thread Cert.KernelIdeal.nD Cert.KernelIdeal.τ).loc Cert.KernelIdeal.main_arg1)) (v3 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_v1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_v1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x8 : Shape := ⟨2, ![1024, 8]⟩
abbrev S64x1024x1024 : Shape := ⟨3, ![64, 1024, 1024]⟩
abbrev S64x512x1024 : Shape := ⟨3, ![64, 512, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x512x1024 : S_.BroadcastsInDim S64x512x1024 (![] : Fin 0 → Fin S64x512x1024.rank)
  reducesTo_S64x512x1024_S_d0_1_2 : S64x512x1024.ReducesTo [0, 1, 2] S_

variable [Facts]

def fn_part1 {F : FTy → Type} [FloatOps F] (main_v13 : IVec S_ 1) (main_v16 : IVec S64x512x1024 1) : IVec S_ 1 :=
  let main_c_5 : IVec S_ 1 := constantI S_ 1 1#1
  let main_v17 : IVec S_ 1 := (fun x v => Host.reduce IntOp.andi x v reducesTo_S64x512x1024_S_d0_1_2 h_S_) main_v16 main_c_5
  let main_v18 : IVec S_ 1 := andi main_v13 main_v17
  main_v18

def fn {F : FTy → Type} [FloatOps F] (main_arg0 : FVec F S1024x1024 .f32) (main_arg1 : FVec F S1024x8 .f32) (main_arg2 : IVec S1024x8 32) (main_arg3 : FVec F S64x1024x1024 .f32) (main_arg4 : FVec F S64x512x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S64x1024x1024 .f32 := Host.absf main_arg3
  let main_cst_2 : FVec F S_ .f32 := constant S_ .f32 0x7F800000#32
  let main_v10 : FVec F S64x1024x1024 .f32 := broadcastInDim S64x1024x1024 ![] bcast_S_S64x1024x1024 main_cst_2
  let main_v11 : IVec S64x1024x1024 1 := cmpf .olt main_v9 main_v10
  let main_c_3 : IVec S_ 1 := constantI S_ 1 1#1
  let main_v12 : IVec S_ 1 := (fun x v => Host.reduce IntOp.andi x v reducesTo_S64x1024x1024_S_d0_1_2 h_S_) main_v11 main_c_3
  let main_v13 : IVec S_ 1 := andi main_v8 main_v12
  let main_v14 : FVec F S64x512x1024 .f32 := Host.absf main_arg4
  let main_cst_4 : FVec F S_ .f32 := constant S_ .f32 0x7F800000#32
  let main_v15 : FVec F S64x512x1024 .f32 := broadcastInDim S64x512x1024 ![] bcast_S_S64x512x1024 main_cst_4
  let main_v16 : IVec S64x512x1024 1 := cmpf .olt main_v14 main_v15
  fn_part1 (F := F) main_v13 main_v16
-- ==== Kernel.lean ====
abbrev S1024x1024 : Shape := ⟨2, ![1024, 1024]⟩
abbrev S1024x8 : Shape := ⟨2, ![1024, 8]⟩
abbrev S64x1024x1024 : Shape := ⟨3, ![64, 1024, 1024]⟩
abbrev S64x512x1024 : Shape := ⟨3, ![64, 512, 1024]⟩
abbrev S8192 : Shape := ⟨1, ![8192]⟩
abbrev S_ : Shape := ⟨0, ![]⟩
abbrev S8192x1 : Shape := ⟨2, ![8192, 1]⟩
abbrev S8192x1024 : Shape := ⟨2, ![8192, 1024]⟩
abbrev S64 : Shape := ⟨1, ![64]⟩
abbrev S64x256x1024 : Shape := ⟨3, ![64, 256, 1024]⟩
abbrev S8192x2 : Shape := ⟨2, ![8192, 2]⟩
abbrev S1x256x1024 : Shape := ⟨3, ![1, 256, 1024]⟩
abbrev S1x1024x1024 : Shape := ⟨3, ![1, 1024, 1024]⟩
abbrev S1x512x1024 : Shape := ⟨3, ![1, 512, 1024]⟩
abbrev S256x1024 : Shape := ⟨2, ![256, 1024]⟩
abbrev S256x512 : Shape := ⟨2, ![256, 512]⟩
abbrev S512x1024 : Shape := ⟨2, ![512, 1024]⟩

abbrev nBuf : Space → Nat
  | .hbm => 128
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S1024x8, .i32⟩
  | .hbm, ⟨3, _⟩ => ⟨S64x1024x1024, .f32⟩
  | .hbm, ⟨4, _⟩ => ⟨S64x512x1024, .f32⟩
  | .hbm, ⟨5, _⟩ => ⟨S8192, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192, .i32⟩
  | .hbm, ⟨18, _⟩ => ⟨S_, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S8192x1024, .f32⟩
  | .hbm, ⟨45, _⟩ => ⟨S_, .i32⟩
  | .hbm, ⟨46, _⟩ => ⟨S64, .i32⟩
  | .hbm, ⟨47, _⟩ => ⟨S_, .i32⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S_, .i32⟩
  | .hbm, ⟨52, _⟩ => ⟨S8192, .i32⟩
  | .hbm, ⟨53, _⟩ => ⟨S8192, .i1⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S8192, .i32⟩
  | .hbm, ⟨58, _⟩ => ⟨S8192x1, .i32⟩
  | .hbm, ⟨59, _⟩ => ⟨S_, .i32⟩
  | .hbm, ⟨60, _⟩ => ⟨S8192, .i32⟩
  | .hbm, ⟨61, _⟩ => ⟨S64, .i32⟩
  | .hbm, ⟨62, _⟩ => ⟨S_, .i32⟩
  | .hbm, ⟨63, _⟩ => ⟨S_, .i32⟩
  | .hbm, ⟨64, _⟩ => ⟨S64, .i32⟩
  | .hbm, ⟨65, _⟩ => ⟨S64, .i32⟩
  | .hbm, ⟨66, _⟩ => ⟨S8192, .i32⟩
  | .hbm, ⟨67, _⟩ => ⟨S_, .i32⟩
  | .hbm, ⟨68, _⟩ => ⟨S8192, .i32⟩
  | .hbm, ⟨69, _⟩ => ⟨S8192, .i1⟩
  | .hbm, ⟨70, _⟩ => ⟨S_, .i32⟩
  | .hbm, ⟨71, _⟩ => ⟨S8192, .i32⟩
  | .hbm, ⟨72, _⟩ => ⟨S8192, .i32⟩
  | .hbm, ⟨73, _⟩ => ⟨S8192, .i32⟩
  | .hbm, ⟨74, _⟩ => ⟨S8192x1, .i32⟩
  | .hbm, ⟨75, _⟩ => ⟨S8192, .i32⟩
  | .hbm, ⟨76, _⟩ => ⟨S8192, .i32⟩
  | .hbm, ⟨77, _⟩ => ⟨S_, .bf16⟩
  | .hbm, ⟨78, _⟩ => ⟨S64x256x1024, .bf16⟩
  | .hbm, ⟨79, _⟩ => ⟨S8192x1024, .bf16⟩
  | .hbm, ⟨80, _⟩ => ⟨S_, .i32⟩
  | .hbm, ⟨81, _⟩ => ⟨S8192, .i32⟩
  | .hbm, ⟨82, _⟩ => ⟨S8192, .i1⟩
  | .hbm, ⟨83, _⟩ => ⟨S_, .i32⟩
  | .hbm, ⟨84, _⟩ => ⟨S8192, .i32⟩
  | .hbm, ⟨85, _⟩ => ⟨S8192, .i32⟩
  | .hbm, ⟨86, _⟩ => ⟨S8192, .i32⟩
  | .hbm, ⟨87, _⟩ => ⟨S_, .i32⟩
  | .hbm, ⟨88, _⟩ => ⟨S8192, .i32⟩
  | .hbm, ⟨89, _⟩ => ⟨S8192, .i1⟩
  | .hbm, ⟨90, _⟩ => ⟨S_, .i32⟩
  | .hbm, ⟨91, _⟩ => ⟨S8192, .i32⟩
  | .hbm, ⟨92, _⟩ => ⟨S8192, .i32⟩
  | .hbm, ⟨93, _⟩ => ⟨S8192, .i32⟩
  | .hbm, ⟨94, _⟩ => ⟨S8192x1, .i32⟩
  | .hbm, ⟨95, _⟩ => ⟨S8192x1, .i32⟩
  | .hbm, ⟨96, _⟩ => ⟨S8192x2, .i32⟩
  | .hbm, ⟨97, _⟩ => ⟨S64x256x1024, .bf16⟩
  | .hbm, ⟨98, _⟩ => ⟨S64x256x1024, .f32⟩
  | .hbm, ⟨99, _⟩ => ⟨S_, .i32⟩
  | .hbm, ⟨100, _⟩ => ⟨S8192, .i32⟩
  | .hbm, ⟨101, _⟩ => ⟨S8192, .i1⟩
  | .hbm, ⟨102, _⟩ => ⟨S_, .i32⟩
  | .hbm, ⟨103, _⟩ => ⟨S8192, .i32⟩
  | .hbm, ⟨104, _⟩ => ⟨S8192, .i32⟩
  | .hbm, ⟨105, _⟩ => ⟨S8192, .i32⟩
  | .hbm, ⟨106, _⟩ => ⟨S_, .i32⟩
  | .hbm, ⟨107, _⟩ => ⟨S8192, .i32⟩
  | .hbm, ⟨108, _⟩ => ⟨S8192, .i1⟩
  | .hbm, ⟨109, _⟩ => ⟨S_, .i32⟩
  | .hbm, ⟨110, _⟩ => ⟨S8192, .i32⟩
  | .hbm, ⟨111, _⟩ => ⟨S8192, .i32⟩
  | .hbm, ⟨112, _⟩ => ⟨S8192, .i32⟩
  | .hbm, ⟨113, _⟩ => ⟨S8192x1, .i32⟩
  | .hbm, ⟨114, _⟩ => ⟨S8192x1, .i32⟩
  | .hbm, ⟨115, _⟩ => ⟨S8192x2, .i32⟩
  | .hbm, ⟨116, _⟩ => ⟨S8192x1024, .f32⟩
  | .hbm, ⟨117, _⟩ => ⟨S_, .f32⟩
  | .hbm, ⟨118, _⟩ => ⟨S8192x1024, .f32⟩
  | .hbm, ⟨119, _⟩ => ⟨S_, .i32⟩
  | .hbm, ⟨120, _⟩ => ⟨S8192, .i32⟩
  | .hbm, ⟨121, _⟩ => ⟨S8192, .i1⟩
  | .hbm, ⟨122, _⟩ => ⟨S_, .i32⟩
  | .hbm, ⟨123, _⟩ => ⟨S8192, .i32⟩
  | .hbm, ⟨124, _⟩ => ⟨S8192, .i32⟩
  | .hbm, ⟨125, _⟩ => ⟨S8192, .i32⟩
  | .hbm, ⟨126, _⟩ => ⟨S8192x1, .i32⟩
  | .hbm, ⟨127, _⟩ => ⟨S8192x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x256x1024, .f32⟩
  | .local _ .vmem, ⟨7, _⟩ => ⟨S1x256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1_0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_c : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_0 : Ref sig .tc := ⟨.hbm, 32, rfl⟩
abbrev main_call1_v12 : Ref sig .tc := ⟨.hbm, 33, rfl⟩
abbrev main_call1_v13 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_v11 : Ref sig .tc := ⟨.hbm, 38, rfl⟩
abbrev main_c_3 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_call2_v0 : Ref sig .tc := ⟨.hbm, 48, rfl⟩
abbrev main_call2_v1 : Ref sig .tc := ⟨.hbm, 49, rfl⟩
abbrev main_v18 : Ref sig .tc := ⟨.hbm, 50, rfl⟩
abbrev main_c_6 : Ref sig .tc := ⟨.hbm, 51, rfl⟩
abbrev main_v19 : Ref sig .tc := ⟨.hbm, 52, rfl⟩
abbrev main_v20 : Ref sig .tc := ⟨.hbm, 53, rfl⟩
abbrev main_c_7 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_8 : Ref sig .tc := ⟨.hbm, 59, rfl⟩
abbrev main_v25 : Ref sig .tc := ⟨.hbm, 60, rfl⟩
abbrev main_v26 : Ref sig .tc := ⟨.hbm, 61, rfl⟩
abbrev main_call3_call0_c : Ref sig .tc := ⟨.hbm, 62, rfl⟩
abbrev main_call3_call0_v0 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_c_9 : Ref sig .tc := ⟨.hbm, 67, rfl⟩
abbrev main_v30 : Ref sig .tc := ⟨.hbm, 68, rfl⟩
abbrev main_v31 : Ref sig .tc := ⟨.hbm, 69, rfl⟩
abbrev main_c_10 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst : Ref sig .tc := ⟨.hbm, 77, rfl⟩
abbrev main_v38 : Ref sig .tc := ⟨.hbm, 78, rfl⟩
abbrev main_v39 : Ref sig .tc := ⟨.hbm, 79, rfl⟩
abbrev main_c_11 : Ref sig .tc := ⟨.hbm, 80, rfl⟩
abbrev main_v40 : Ref sig .tc := ⟨.hbm, 81, rfl⟩
abbrev main_v41 : Ref sig .tc := ⟨.hbm, 82, rfl⟩
abbrev main_c_12 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_13 : Ref sig .tc := ⟨.hbm, 87, rfl⟩
abbrev main_v45 : Ref sig .tc := ⟨.hbm, 88, rfl⟩
abbrev main_v46 : Ref sig .tc := ⟨.hbm, 89, rfl⟩
abbrev main_c_14 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_c_15 : Ref sig .tc := ⟨.hbm, 99, rfl⟩
abbrev main_v55 : Ref sig .tc := ⟨.hbm, 100, rfl⟩
abbrev main_v56 : Ref sig .tc := ⟨.hbm, 101, rfl⟩
abbrev main_c_16 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_17 : Ref sig .tc := ⟨.hbm, 106, rfl⟩
abbrev main_v60 : Ref sig .tc := ⟨.hbm, 107, rfl⟩
abbrev main_v61 : Ref sig .tc := ⟨.hbm, 108, rfl⟩
abbrev main_c_18 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_19 : Ref sig .tc := ⟨.hbm, 117, rfl⟩
abbrev main_v69 : Ref sig .tc := ⟨.hbm, 118, rfl⟩
abbrev main_c_20 : Ref sig .tc := ⟨.hbm, 119, rfl⟩
abbrev main_v70 : Ref sig .tc := ⟨.hbm, 120, rfl⟩
abbrev main_v71 : Ref sig .tc := ⟨.hbm, 121, rfl⟩
abbrev main_c_21 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024x8_S8192 : S1024x8.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S64 : S_.BroadcastsInDim S64 (![] : Fin 0 → Fin S64.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S64x256x1024 : S_.BroadcastsInDim S64x256x1024 (![] : Fin 0 → Fin S64x256x1024.rank)
  bitsLt_bf16_f32 : FTy.bits .bf16 < FTy.bits .f32
  concatenates_S8192x1_S8192x1_S8192x2_d1 : Shape.Concatenates [S8192x1, S8192x1] S8192x2 1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  slices_S256x1024_o0_0_S256x512 : S256x1024.Slices ![0, 0] S256x512
  slices_S256x1024_o0_512_S256x512 : S256x1024.Slices ![0, 512] S256x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S256x1024_S1x256x1024 : S256x1024.ShapeCasts S1x256x1024
  bcast_S_S8192x1024 : S_.BroadcastsInDim S8192x1024 (![] : Fin 0 → Fin S8192x1024.rank)
  gather_S8192_S8192x1_S8192_n_0_n_n_0_1_1_wf : GatherDims.WF S8192 S8192x1 S8192 [] [0] [] [0] [] 1 ![1]
  gather_S1024x1024_S8192x1_S8192x1024_1_0_n_n_0_1_11024_wf : GatherDims.WF S1024x1024 S8192x1 S8192x1024 [1] [0] [] [0] [] 1 ![1, 1024]
  scatter_S64_S8192x1_S8192_n_0_0_1_wf : ScatterDims.WF S64 S8192x1 S8192 [] [0] [0] 1
  gather_S64_S8192x1_S8192_n_0_n_n_0_1_1_wf : GatherDims.WF S64 S8192x1 S8192 [] [0] [] [0] [] 1 ![1]
  scatter_S64x256x1024_S8192x2_S8192x1024_1_01_01_1_wf : ScatterDims.WF S64x256x1024 S8192x2 S8192x1024 [1] [0, 1] [0, 1] 1
  dot_S256x1024_S1024x1024_S256x1024_1_0_0_1_n_n_wf : DotDims.WF S256x1024 S1024x1024 S256x1024 [1] [0] [0] [1] [] []
  dot_S256x512_S512x1024_S256x1024_1_0_0_1_n_n_wf : DotDims.WF S256x512 S512x1024 S256x1024 [1] [0] [0] [1] [] []
  gather_S64x256x1024_S8192x2_S8192x1024_1_01_n_n_01_1_111024_wf : GatherDims.WF S64x256x1024 S8192x2 S8192x1024 [1] [0, 1] [] [0, 1] [] 1 ![1, 1, 1024]
  scatter_S8192x1024_S8192x1_S8192x1024_1_0_0_1_wf : ScatterDims.WF S8192x1024 S8192x1 S8192x1024 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S64x256x1024.size a
  hwx0_0 : ∀ i : grid0.Coords, EltTy.bits .bf16 = 32 ∨ (Rect.block (s := S64x256x1024) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x1024.size a
  hwx0_1 : ∀ i : grid0.Coords, EltTy.bits .f32 = 32 ∨ (Rect.block (s := S64x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S64x512x1024.size a
  hwx0_2 : ∀ i : grid0.Coords, EltTy.bits .f32 = 32 ∨ (Rect.block (s := S64x512x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S64x256x1024.size a
  hwx0_3 : ∀ i : grid0.Coords, EltTy.bits .f32 = 32 ∨ (Rect.block (s := S64x256x1024) S1x256x1024.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def gather_S1024x1024_S8192x1_S8192x1024_1_0_n_n_0_1_11024 : GatherDims S1024x1024 S8192x1 S8192x1024 where
  offsetDims := [1]
  collapsedSliceDims := [0]
  operandBatchingDims := []
  startIndicesBatchingDims := []
  startIndexMap := [0]
  indexVectorDim := 1
  sliceSizes := ![1, 1024]
  wf := gather_S1024x1024_S8192x1_S8192x1024_1_0_n_n_0_1_11024_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf
def scatter_S64x256x1024_S8192x2_S8192x1024_1_01_01_1 : ScatterDims S64x256x1024 S8192x2 S8192x1024 where
  updateWindowDims := [1]
  insertedWindowDims := [0, 1]
  scatterDimsToOperandDims := [0, 1]
  indexVectorDim := 1
  wf := scatter_S64x256x1024_S8192x2_S8192x1024_1_01_01_1_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def gather_S64x256x1024_S8192x2_S8192x1024_1_01_n_n_01_1_111024 : GatherDims S64x256x1024 S8192x2 S8192x1024 where
  offsetDims := [1]
  collapsedSliceDims := [0, 1]
  operandBatchingDims := []
  startIndicesBatchingDims := []
  startIndexMap := [0, 1]
  indexVectorDim := 1
  sliceSizes := ![1, 1, 1024]
  wf := gather_S64x256x1024_S8192x2_S8192x1024_1_01_n_n_01_1_111024_wf
def scatter_S8192x1024_S8192x1_S8192x1024_1_0_0_1 : ScatterDims S8192x1024 S8192x1 S8192x1024 where
  updateWindowDims := [1]
  insertedWindowDims := [0]
  scatterDimsToOperandDims := [0]
  indexVectorDim := 1
  wf := scatter_S8192x1024_S8192x1_S8192x1024_1_0_0_1_wf

abbrev win0_0 : Pipeline.Window sig grid0 :=
  Pipeline.Window.ofSpec (Memref.whole main_v53) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x8 : Shape := ⟨2, ![1024, 8]⟩
abbrev S64x1024x1024 : Shape := ⟨3, ![64, 1024, 1024]⟩
abbrev S64x512x1024 : Shape := ⟨3, ![64, 512, 1024]⟩
abbrev S8192 : Shape := ⟨1, ![8192]⟩
abbrev S_ : Shape := ⟨0, ![]⟩
abbrev S8192x1 : Shape := ⟨2, ![8192, 1]⟩
abbrev S8192x1024 : Shape := ⟨2, ![8192, 1024]⟩
abbrev S64 : Shape := ⟨1, ![64]⟩
abbrev S64x256x1024 : Shape := ⟨3, ![64, 256, 1024]⟩
abbrev S8192x2 : Shape := ⟨2, ![8192, 2]⟩
abbrev S64x256x512 : Shape := ⟨3, ![64, 256, 512]⟩

abbrev nBuf : Space → Nat
  | .hbm => 140
  | .vmem => 0
  | .smem => 0
  | _ => 0

abbrev hbmTy0_0 (i : Nat) : BufTy := match i % 128 with
  | 0 => ⟨S1024x1024, .f32⟩
  | 1 => ⟨S1024x8, .f32⟩
  | 2 => ⟨S1024x8, .i32⟩
  | 3 => ⟨S64x1024x1024, .f32⟩
  | 4 => ⟨S64x512x1024, .f32⟩
  | 5 => ⟨S8192, .i32⟩
  | 6 => ⟨S8192, .i32⟩
  | 7 => ⟨S8192, .i32⟩
  | 8 => ⟨S8192, .i32⟩
  | 9 => ⟨S_, .i32⟩
  | 10 => ⟨S8192, .i32⟩
  | 11 => ⟨S8192, .i1⟩
  | 12 => ⟨S_, .i32⟩
  | 13 => ⟨S8192, .i32⟩
  | 14 => ⟨S8192, .i32⟩
  | 15 => ⟨S8192, .i32⟩
  | 16 => ⟨S8192x1, .i32⟩
  | 17 => ⟨S8192, .i32⟩
  | 18 => ⟨S_, .i32⟩
  | 19 => ⟨S_, .i32⟩
  | 20 => ⟨S8192, .i32⟩
  | 21 => ⟨S8192, .i32⟩
  | 22 => ⟨S8192, .i32⟩
  | 23 => ⟨S_, .i32⟩
  | 24 => ⟨S8192, .i32⟩
  | 25 => ⟨S8192, .i1⟩
  | 26 => ⟨S8192, .i32⟩
  | 27 => ⟨S8192, .i32⟩
  | 28 => ⟨S_, .i32⟩
  | 29 => ⟨S8192, .i32⟩
  | 30 => ⟨S8192, .i1⟩
  | 31 => ⟨S8192, .i1⟩
  | 32 => ⟨S_, .i32⟩
  | 33 => ⟨S8192, .i32⟩
  | 34 => ⟨S8192, .i32⟩
  | 35 => ⟨S8192, .i32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S8192x1024, .f32⟩
  | 45 => ⟨S_, .i32⟩
  | 46 => ⟨S64, .i32⟩
  | 47 => ⟨S_, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i1⟩
  | 54 => ⟨S_, .i32⟩
  | 55 => ⟨S8192, .i32⟩
  | 56 => ⟨S8192, .i32⟩
  | 57 => ⟨S8192, .i32⟩
  | 58 => ⟨S8192x1, .i32⟩
  | 59 => ⟨S_, .i32⟩
  | 60 => ⟨S8192, .i32⟩
  | 61 => ⟨S64, .i32⟩
  | 62 => ⟨S_, .i32⟩
  | 63 => ⟨S_, .i32⟩
  | 64 => ⟨S64, .i32⟩
  | 65 => ⟨S64, .i32⟩
  | 66 => ⟨S8192, .i32⟩
  | 67 => ⟨S_, .i32⟩
  | 68 => ⟨S8192, .i32⟩
  | 69 => ⟨S8192, .i1⟩
  | 70 => ⟨S_, .i32⟩
  | 71 => ⟨S8192, .i32⟩
  | 72 => ⟨S8192, .i32⟩
  | 73 => ⟨S8192, .i32⟩
  | 74 => ⟨S8192x1, .i32⟩
  | 75 => ⟨S8192, .i32⟩
  | 76 => ⟨S8192, .i32⟩
  | 77 => ⟨S_, .f32⟩
  | 78 => ⟨S64x256x1024, .f32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x1, .i32⟩
  | 95 => ⟨S8192x2, .i32⟩
  | 96 => ⟨S64x256x1024, .f32⟩
  | 97 => ⟨S64x256x1024, .f32⟩
  | 98 => ⟨S64x256x512, .f32⟩
  | 99 => ⟨S64x256x512, .f32⟩
  | 100 => ⟨S64x256x512, .f32⟩
  | 101 => ⟨S64x256x512, .f32⟩
  | 102 => ⟨S_, .f32⟩
  | 103 => ⟨S64x256x512, .f32⟩
  | 104 => ⟨S64x256x512, .f32⟩
  | 105 => ⟨S_, .f32⟩
  | 106 => ⟨S64x256x512, .f32⟩
  | 107 => ⟨S64x256x512, .f32⟩
  | 108 => ⟨S64x256x512, .f32⟩
  | 109 => ⟨S64x256x512, .f32⟩
  | 110 => ⟨S64x256x1024, .f32⟩
  | 111 => ⟨S_, .i32⟩
  | 112 => ⟨S8192, .i32⟩
  | 113 => ⟨S8192, .i1⟩
  | 114 => ⟨S_, .i32⟩
  | 115 => ⟨S8192, .i32⟩
  | 116 => ⟨S8192, .i32⟩
  | 117 => ⟨S8192, .i32⟩
  | 118 => ⟨S_, .i32⟩
  | 119 => ⟨S8192, .i32⟩
  | 120 => ⟨S8192, .i1⟩
  | 121 => ⟨S_, .i32⟩
  | 122 => ⟨S8192, .i32⟩
  | 123 => ⟨S8192, .i32⟩
  | 124 => ⟨S8192, .i32⟩
  | 125 => ⟨S8192x1, .i32⟩
  | 126 => ⟨S8192x1, .i32⟩
  | 127 => ⟨S8192x2, .i32⟩
  | _ => ⟨S1024x1024, .f32⟩

abbrev hbmTy0_1 (i : Nat) : BufTy := match i % 128 with
  | 0 => ⟨S8192x1024, .f32⟩
  | 1 => ⟨S_, .f32⟩
  | 2 => ⟨S8192x1024, .f32⟩
  | 3 => ⟨S_, .i32⟩
  | 4 => ⟨S8192, .i32⟩
  | 5 => ⟨S8192, .i1⟩
  | 6 => ⟨S_, .i32⟩
  | 7 => ⟨S8192, .i32⟩
  | 8 => ⟨S8192, .i32⟩
  | 9 => ⟨S8192, .i32⟩
  | 10 => ⟨S8192x1, .i32⟩
  | 11 => ⟨S8192x1024, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1_0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_c : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_0 : Ref sig .tc := ⟨.hbm, 32, rfl⟩
abbrev main_call1_v12 : Ref sig .tc := ⟨.hbm, 33, rfl⟩
abbrev main_call1_v13 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_v11 : Ref sig .tc := ⟨.hbm, 38, rfl⟩
abbrev main_c_3 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_call2_v0 : Ref sig .tc := ⟨.hbm, 48, rfl⟩
abbrev main_call2_v1 : Ref sig .tc := ⟨.hbm, 49, rfl⟩
abbrev main_v18 : Ref sig .tc := ⟨.hbm, 50, rfl⟩
abbrev main_c_6 : Ref sig .tc := ⟨.hbm, 51, rfl⟩
abbrev main_v19 : Ref sig .tc := ⟨.hbm, 52, rfl⟩
abbrev main_v20 : Ref sig .tc := ⟨.hbm, 53, rfl⟩
abbrev main_c_7 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_8 : Ref sig .tc := ⟨.hbm, 59, rfl⟩
abbrev main_v25 : Ref sig .tc := ⟨.hbm, 60, rfl⟩
abbrev main_v26 : Ref sig .tc := ⟨.hbm, 61, rfl⟩
abbrev main_call3_call0_c : Ref sig .tc := ⟨.hbm, 62, rfl⟩
abbrev main_call3_call0_v0 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_c_9 : Ref sig .tc := ⟨.hbm, 67, rfl⟩
abbrev main_v30 : Ref sig .tc := ⟨.hbm, 68, rfl⟩
abbrev main_v31 : Ref sig .tc := ⟨.hbm, 69, rfl⟩
abbrev main_c_10 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst : Ref sig .tc := ⟨.hbm, 77, rfl⟩
abbrev main_v38 : Ref sig .tc := ⟨.hbm, 78, rfl⟩
abbrev main_c_11 : Ref sig .tc := ⟨.hbm, 79, rfl⟩
abbrev main_v39 : Ref sig .tc := ⟨.hbm, 80, rfl⟩
abbrev main_v40 : Ref sig .tc := ⟨.hbm, 81, rfl⟩
abbrev main_c_12 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_c_13 : Ref sig .tc := ⟨.hbm, 86, rfl⟩
abbrev main_v44 : Ref sig .tc := ⟨.hbm, 87, rfl⟩
abbrev main_v45 : Ref sig .tc := ⟨.hbm, 88, rfl⟩
abbrev main_c_14 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_call4_v0 : Ref sig .tc := ⟨.hbm, 100, rfl⟩
abbrev main_call4_v1 : Ref sig .tc := ⟨.hbm, 101, rfl⟩
abbrev main_call4_cst : Ref sig .tc := ⟨.hbm, 102, rfl⟩
abbrev main_call4_v2 : Ref sig .tc := ⟨.hbm, 103, rfl⟩
abbrev main_call4_v3 : Ref sig .tc := ⟨.hbm, 104, rfl⟩
abbrev main_call4_cst_0 : Ref sig .tc := ⟨.hbm, 105, rfl⟩
abbrev main_call4_v4 : Ref sig .tc := ⟨.hbm, 106, rfl⟩
abbrev main_call4_v5 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_c_15 : Ref sig .tc := ⟨.hbm, 111, rfl⟩
abbrev main_v59 : Ref sig .tc := ⟨.hbm, 112, rfl⟩
abbrev main_v60 : Ref sig .tc := ⟨.hbm, 113, rfl⟩
abbrev main_c_16 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_c_17 : Ref sig .tc := ⟨.hbm, 118, rfl⟩
abbrev main_v64 : Ref sig .tc := ⟨.hbm, 119, rfl⟩
abbrev main_v65 : Ref sig .tc := ⟨.hbm, 120, rfl⟩
abbrev main_c_18 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_cst_19 : Ref sig .tc := ⟨.hbm, 129, rfl⟩
abbrev main_v73 : Ref sig .tc := ⟨.hbm, 130, rfl⟩
abbrev main_c_20 : Ref sig .tc := ⟨.hbm, 131, rfl⟩
abbrev main_v74 : Ref sig .tc := ⟨.hbm, 132, rfl⟩
abbrev main_v75 : Ref sig .tc := ⟨.hbm, 133, rfl⟩
abbrev main_c_21 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩

abbrev nD : Nat := 1
abbrev τ : Topo := Topo.v7x

variable {F : FTy → Type} [FloatOps F]

class Facts₀ : Prop where
  shapeCasts_S1024x8_S8192 : S1024x8.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S64 : S_.BroadcastsInDim S64 (![] : Fin 0 → Fin S64.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S64x256x1024 : S_.BroadcastsInDim S64x256x1024 (![] : Fin 0 → Fin S64x256x1024.rank)
  concatenates_S8192x1_S8192x1_S8192x2_d1 : Shape.Concatenates [S8192x1, S8192x1] S8192x2 1
  slices_S64x256x1024_S64x256x512_0_0_0 : S64x256x1024.Slices ![0, 0, 0] S64x256x512
  slices_S64x256x1024_S64x256x512_0_0_512 : S64x256x1024.Slices ![0, 0, 512] S64x256x512
  bcast_S_S64x256x512 : S_.BroadcastsInDim S64x256x512 (![] : Fin 0 → Fin S64x256x512.rank)
  bcast_S_S8192x1024 : S_.BroadcastsInDim S8192x1024 (![] : Fin 0 → Fin S8192x1024.rank)
  gather_S8192_S8192x1_S8192_n_0_n_n_0_1_1_wf : GatherDims.WF S8192 S8192x1 S8192 [] [0] [] [0] [] 1 ![1]
  gather_S1024x1024_S8192x1_S8192x1024_1_0_n_n_0_1_11024_wf : GatherDims.WF S1024x1024 S8192x1 S8192x1024 [1] [0] [] [0] [] 1 ![1, 1024]
  scatter_S64_S8192x1_S8192_n_0_0_1_wf : ScatterDims.WF S64 S8192x1 S8192 [] [0] [0] 1
  gather_S64_S8192x1_S8192_n_0_n_n_0_1_1_wf : GatherDims.WF S64 S8192x1 S8192 [] [0] [] [0] [] 1 ![1]
  scatter_S64x256x1024_S8192x2_S8192x1024_1_01_01_1_wf : ScatterDims.WF S64x256x1024 S8192x2 S8192x1024 [1] [0, 1] [0, 1] 1
  dot_S64x256x1024_S64x1024x1024_S64x256x1024_2_1_1_2_0_0_wf : DotDims.WF S64x256x1024 S64x1024x1024 S64x256x1024 [2] [1] [1] [2] [0] [0]
  dot_S64x256x512_S64x512x1024_S64x256x1024_2_1_1_2_0_0_wf : DotDims.WF S64x256x512 S64x512x1024 S64x256x1024 [2] [1] [1] [2] [0] [0]
  gather_S64x256x1024_S8192x2_S8192x1024_1_01_n_n_01_1_111024_wf : GatherDims.WF S64x256x1024 S8192x2 S8192x1024 [1] [0, 1] [] [0, 1] [] 1 ![1, 1, 1024]
  scatter_S8192x1024_S8192x1_S8192x1024_1_0_0_1_wf : ScatterDims.WF S8192x1024 S8192x1 S8192x1024 [1] [0] [0] 1

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def gather_S1024x1024_S8192x1_S8192x1024_1_0_n_n_0_1_11024 : GatherDims S1024x1024 S8192x1 S8192x1024 where
  offsetDims := [1]
  collapsedSliceDims := [0]
  operandBatchingDims := []
  startIndicesBatchingDims := []
  startIndexMap := [0]
  indexVectorDim := 1
  sliceSizes := ![1, 1024]
  wf := gather_S1024x1024_S8192x1_S8192x1024_1_0_n_n_0_1_11024_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf
def scatter_S64x256x1024_S8192x2_S8192x1024_1_01_01_1 : ScatterDims S64x256x1024 S8192x2 S8192x1024 where
  updateWindowDims := [1]
  insertedWindowDims := [0, 1]
  scatterDimsToOperandDims := [0, 1]
  indexVectorDim := 1
  wf := scatter_S64x256x1024_S8192x2_S8192x1024_1_01_01_1_wf
def dot_S64x256x1024_S64x1024x1024_S64x256x1024_2_1_1_2_0_0 : DotDims S64x256x1024 S64x1024x1024 S64x256x1024 where
  lhsContracting := [2]
  rhsContracting := [1]
  lhsNonContracting := [1]
  rhsNonContracting := [2]
  lhsBatch := [0]
  rhsBatch := [0]
  wf := dot_S64x256x1024_S64x1024x1024_S64x256x1024_2_1_1_2_0_0_wf
def dot_S64x256x512_S64x512x1024_S64x256x1024_2_1_1_2_0_0 : DotDims S64x256x512 S64x512x1024 S64x256x1024 where
  lhsContracting := [2]
  rhsContracting := [1]
  lhsNonContracting := [1]
  rhsNonContracting := [2]
  lhsBatch := [0]
  rhsBatch := [0]
  wf := dot_S64x256x512_S64x512x1024_S64x256x1024_2_1_1_2_0_0_wf
def gather_S64x256x1024_S8192x2_S8192x1024_1_01_n_n_01_1_111024 : GatherDims S64x256x1024 S8192x2 S8192x1024 where
  offsetDims := [1]
  collapsedSliceDims := [0, 1]
  operandBatchingDims := []
  startIndicesBatchingDims := []
  startIndexMap := [0, 1]
  indexVectorDim := 1
  sliceSizes := ![1, 1, 1024]
  wf := gather_S64x256x1024_S8192x2_S8192x1024_1_01_n_n_01_1_111024_wf
def scatter_S8192x1024_S8192x1_S8192x1024_1_0_0_1 : ScatterDims S8192x1024 S8192x1 S8192x1024 where
  updateWindowDims := [1]
  insertedWindowDims := [0]
  scatterDimsToOperandDims := [0]
  indexVectorDim := 1
  wf := scatter_S8192x1024_S8192x1_S8192x1024_1_0_0_1_wf

class Facts : Prop extends Facts₀ where

variable [Facts]
-- ==== Proof.Spec.lean ====
/-
  One expert of the mixture, as a function of its three matrices, and the reference's grouped form of it.

  For a token block `x` (256 rows of 1024 features), the packed gate/up weights `w` (1024 × 1024: columns 0–511 the
  gate, 512–1023 the up projection) and the down weights `v` (512 × 1024), entry (c, h) of the expert's output is
      Σ_i  ( g_i · logistic g_i · u_i ) · v i h,   g_i = Σ_k x c k · w k i,   u_i = Σ_k x c k · w k (512 + i),
  every sum and product taken on the extended reals, in this order of multiplication.
  `mid` is the same computation written for all 64 experts at once, as the reference spells it: a batched product
  with the packed weights, the two half-width slices, x · (1 / (1 + e^(−x))) on the gate half, the product with the
  up half, and the batched product with the down weights.
-/
import proofs.«136024_j37752762532030_2_alg».proof.Proof.Gen.ReferenceIdeal
import Idealize.ShloMosaic.PureOps.Ideal
import Idealize.ShloMosaic.Lib.ValueIdx

noncomputable section
open scoped BigOperators
open Idealize.ShloMosaic Idealize.ShloMosaic.ValueIdx

namespace Cert.Spec

open Cert.ReferenceIdeal Cert.ReferenceIdeal.Facts₀

/-- Column `i` of the gate half of the packed weights. -/
def gateCol (i : Fin 512) : Fin 1024 := ⟨i.val, by omega⟩
/-- Column `i` of the up half of the packed weights. -/
def upCol (i : Fin 512) : Fin 1024 := ⟨512 + i.val, by omega⟩

/-- Entry (c, h) of one expert's output from its token block `x`, packed gate/up weights `w` and down weights `v`. -/
def swiglu (x : Fin 256 → Fin 1024 → EReal) (w : Fin 1024 → Fin 1024 → EReal) (v : Fin 512 → Fin 1024 → EReal)
    (c : Fin 256) (h : Fin 1024) : EReal :=
  ∑ i : Fin 512,
    (((∑ k : Fin 1024, x c k * w k (gateCol i)) * Ideal.logistic (∑ k : Fin 1024, x c k * w k (gateCol i)))
      * (∑ k : Fin 1024, x c k * w k (upCol i))) * v i h

/-- The 64 experts at once, in the reference's operations: `b` the per-expert token blocks, `a3` the packed gate/up
    weights, `a4` the down weights. -/
def mid (b : FVec Ideal S64x256x1024 .f32) (a3 : FVec Ideal S64x1024x1024 .f32) (a4 : FVec Ideal S64x512x1024 .f32) :
    FVec Ideal S64x256x1024 .f32 :=
  have mm : FVec Ideal S64x256x1024 .f32 :=
    Host.dotGeneral dot_S64x256x1024_S64x1024x1024_S64x256x1024_2_1_1_2_0_0 none b a3
  have gate : FVec Ideal S64x256x512 .f32 :=
    extractStridedSlice S64x256x512 ![0, 0, 0] mm slices_S64x256x1024_S64x256x512_0_0_0
  have up : FVec Ideal S64x256x512 .f32 :=
    extractStridedSlice S64x256x512 ![0, 0, 512] mm slices_S64x256x1024_S64x256x512_0_0_512
  have one : FVec Ideal S64x256x512 .f32 :=
    broadcastInDim S64x256x512 ![] bcast_S_S64x256x512 (constant (F := Ideal) S_ .f32 0x3F800000#32)
  have act : FVec Ideal S64x256x512 .f32 :=
    mulf gate (Host.divf one (addf one (Host.exp (Host.negf gate))))
  Host.dotGeneral dot_S64x256x512_S64x512x1024_S64x256x1024_2_1_1_2_0_0 none (mulf act up) a4

end Cert.Spec

end
-- ==== Proof.LibMatRead.lean ====
/-
  Two matrix products read at an index, over the extended reals, for any dimension record with the stated axes: the
  product that contracts the second axis of both operands (rows against rows), and the one that contracts the second
  axis of the left with the first of the right (rows against columns). Into a zero accumulator each is the plain sum
  over the shared axis of the products of the entries; the contraction's index type has one coordinate, and the sum is
  re-indexed by it.
-/
import Idealize.ShloMosaic.PureOps.Ideal.Laws
import Idealize.ShloMosaic.Lib.ValueIdx

noncomputable section
open scoped BigOperators
open Idealize.ShloMosaic Idealize.ShloMosaic.ValueIdx

namespace Cert.MatRead

/-- A product that contracts the second axis of both operands, into a zero accumulator, read at an index: the sum over
    the shared axis of row `a` of the left operand times row `b` of the right. -/
theorem matmul_rows_apply {m k n : Nat} {φ₁ φ₂ : FTy}
    (d : DotDims ⟨2, ![m, k]⟩ ⟨2, ![n, k]⟩ ⟨2, ![m, n]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (A : FVec Ideal ⟨2, ![m, k]⟩ φ₁) (B : FVec Ideal ⟨2, ![n, k]⟩ φ₂) (a : Fin m) (b : Fin n) :
    FloatOps.matmul d prec A B (constant ⟨2, ![m, n]⟩ .f32 0x00000000#32) (ix2 a b)
      = ∑ c : Fin k, A (ix2 a c) * B (ix2 b c) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 b c := by
    funext ax; apply Fin.ext
    match ax with
    | ⟨0, _⟩ => simp [DotDims.rhsIdx, hrc, hrn, hrb]; exact key1 _ _ (by simp [hlb, hln, hrn])
    | ⟨1, _⟩ => exact (d.rhsIdx_val_of_single hrc _ _).trans c2
  rw [l2, r2]

/-- A product that contracts the second axis of the left operand with the first of the right, into a zero accumulator,
    read at an index: row `a` of the left operand times column `b` of the right. -/
theorem matmul_row_col_apply {m k n : Nat} {φ₁ φ₂ : FTy}
    (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (A : FVec Ideal ⟨2, ![m, k]⟩ φ₁) (B : FVec Ideal ⟨2, ![k, n]⟩ φ₂) (a : Fin m) (b : Fin n) :
    FloatOps.matmul d prec A B (constant ⟨2, ![m, n]⟩ .f32 0x00000000#32) (ix2 a b)
      = ∑ c : Fin k, A (ix2 a c) * B (ix2 c b) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 c b := by
    funext ax; apply Fin.ext
    match ax with
    | ⟨0, _⟩ => exact (d.rhsIdx_val_of_single hrc _ _).trans c2
    | ⟨1, _⟩ => simp [DotDims.rhsIdx, hrc, hrn, hrb]; exact key1 _ _ (by simp [hlb, hln, hrn])
  rw [l2, r2]

end Cert.MatRead
-- ==== Proof.PayRead.lean ====
/-
  The kernel body's stored value, read at one entry: for the expert whose token block, packed gate/up weights and down
  weights the body loaded, entry (c, h) of what it stores is that expert's output entry (c, h) as the specification
  writes it.

  The stored value is a chain of operations on whole blocks. Read at an entry, each one is elementary: a cast between
  [1, a, b] and [a, b] keeps the entry, the format changes are the identity on the extended reals, a product into a
  zero accumulator is the sum over the shared axis of the products of the entries, a half-width slice reads the column
  shifted by its offset (0 for the gate half, 512 for the up half), and the logistic and the two products act entry by
  entry.
-/
import proofs.«136024_j37752762532030_2_alg».proof.Proof.Gen.KernelIdeal.Skeleton
import proofs.«136024_j37752762532030_2_alg».proof.Proof.Spec
import proofs.«136024_j37752762532030_2_alg».proof.Proof.LibMatRead
import Idealize.ShloMosaic.Lib.ValueLayout

noncomputable section
open scoped BigOperators
open Idealize.ShloMosaic Idealize.ShloMosaic.ValueIdx

namespace Cert.PayRead

open Cert.KernelIdeal Cert.KernelIdeal.Facts₀

/-- The first product read at (c, n): the token block's row c against column n of the packed weights, both read through
    their leading unit axis. -/
theorem gateUp_apply (x0 : Vec Ideal S1x256x1024 .bf16) (x1 : Vec Ideal S1x1024x1024 .f32) (c : Fin 256) (n : Fin 1024) :
    matmul (F := Ideal) (φ₁ := .bf16) (φ₂ := .bf16) dot_S256x1024_S1024x1024_S256x1024_1_0_0_1_n_n none
        (shapeCast S256x1024 x0 shapeCasts_S1x256x1024_S256x1024 : FVec Ideal S256x1024 .bf16)
        (truncf .bf16 (shapeCast S1024x1024 x1 shapeCasts_S1x1024x1024_S1024x1024 : FVec Ideal S1024x1024 .f32) bitsLt_bf16_f32)
        (constant S256x1024 .f32 0x00000000#32) (ix2 c n)
      = ∑ k : Fin 1024, x0 (ix3 0 c k) * x1 (ix3 0 k n) := by
  refine (Cert.MatRead.matmul_row_col_apply _ rfl rfl rfl rfl rfl rfl none _ _ c n).trans ?_
  refine Finset.sum_congr rfl fun k _ => ?_
  exact congrArg₂ (· * ·) (shapeCast_1ab_ab_apply x0 _ c k) (shapeCast_1ab_ab_apply x1 _ k n)

theorem pay_apply (x0 : Vec Ideal Cert.KernelIdeal.S1x256x1024 .bf16) (x1 : Vec Ideal Cert.KernelIdeal.S1x1024x1024 .f32)
    (x2 : Vec Ideal Cert.KernelIdeal.S1x512x1024 .f32) (c : Fin 256) (h : Fin 1024) :
    Cert.KernelIdeal.Gen.k0_pay1 (F := Ideal) x0 x1 x2 (ix3 0 c h)
      = Cert.Spec.swiglu (fun c k => x0 (ix3 0 c k)) (fun k n => x1 (ix3 0 k n)) (fun i h => x2 (ix3 0 i h)) c h := by
  unfold Cert.KernelIdeal.Gen.k0_pay1
  -- the cast back to [1, 256, 1024], then the second product: the sum over the 512 middle columns
  refine (shapeCast_ab_1ab_apply _ _ 0 c h).trans ?_
  refine (Cert.MatRead.matmul_row_col_apply _ rfl rfl rfl rfl rfl rfl none _ _ c h).trans ?_
  unfold Cert.Spec.swiglu
  refine Finset.sum_congr rfl fun i _ => ?_
  -- the gate half reads column i of the first product, the up half column 512 + i
  have hg := gateUp_apply x0 x1 c (Cert.Spec.gateCol i)
  have hu := gateUp_apply x0 x1 c (Cert.Spec.upCol i)
  refine congrArg₂ (· * ·) ?_ (shapeCast_1ab_ab_apply x2 _ i h)
  refine congrArg₂ (· * ·) (congrArg₂ (· * ·) ?_ (congrArg Ideal.logistic ?_)) ?_
  · exact (slice2_axis1_apply 0 _ slices_S256x1024_o0_0_S256x512 c i (Cert.Spec.gateCol i) (Nat.zero_add _).symm).trans hg
  · exact (slice2_axis1_apply 0 _ slices_S256x1024_o0_0_S256x512 c i (Cert.Spec.gateCol i) (Nat.zero_add _).symm).trans hg
  · exact (slice2_axis1_apply 512 _ slices_S256x1024_o0_512_S256x512 c i (Cert.Spec.upCol i) rfl).trans hu

end Cert.PayRead

end
-- ==== Proof.KBlocks.lean ====
/-
  The kernel's output array after its run, as one function of the arrays the region finds.

  The grid has one point per expert. At point `t` every window's block is expert `t`'s slab of its array — block index
  (t, 0, 0), so entry (0, c, k) of a block is entry (t, c, k) of the array — and the body writes the expert's output
  (`Spec.swiglu` of the three slabs) to the output's slab. The 64 slabs tile the output array: index (e, c, h) lies in
  the block of the point `e`. So the array ends holding, at (e, c, h), the expert function of slab `e` of the token
  blocks, of the packed gate/up weights and of the down weights.
-/
import proofs.«136024_j37752762532030_2_alg».proof.Proof.Gen.KernelIdeal.Frame
import proofs.«136024_j37752762532030_2_alg».proof.Proof.Spec
import proofs.«136024_j37752762532030_2_alg».proof.Proof.PayRead
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Entry (e, c, h) of the experts' outputs: the expert function of slab `e` of each operand. -/
def outAt (b : (⟨S64x256x1024, .bf16⟩ : BufTy).Contents (Elt Ideal)) (a3 : (⟨S64x1024x1024, .f32⟩ : BufTy).Contents (Elt Ideal))
    (a4 : (⟨S64x512x1024, .f32⟩ : BufTy).Contents (Elt Ideal)) (e : Fin 64) (c : Fin 256) (h : Fin 1024) : EReal :=
  Cert.Spec.swiglu (fun c k => b (ix3 e c k)) (fun k n => a3 (ix3 e k n)) (fun i h => a4 (ix3 e i h)) c h

/-- The experts' outputs as one array. -/
def outArr (b : (⟨S64x256x1024, .bf16⟩ : BufTy).Contents (Elt Ideal)) (a3 : (⟨S64x1024x1024, .f32⟩ : BufTy).Contents (Elt Ideal))
    (a4 : (⟨S64x512x1024, .f32⟩ : BufTy).Contents (Elt Ideal)) : (⟨S64x256x1024, .f32⟩ : BufTy).Contents (Elt Ideal) := fun j =>
  outAt b a3 a4 (j 0) (j 1) (j 2)

theorem outArr_ix3 (b : (⟨S64x256x1024, .bf16⟩ : BufTy).Contents (Elt Ideal)) (a3 : (⟨S64x1024x1024, .f32⟩ : BufTy).Contents (Elt Ideal))
    (a4 : (⟨S64x512x1024, .f32⟩ : BufTy).Contents (Elt Ideal)) (e : Fin 64) (c : Fin 256) (h : Fin 1024) :
    outArr b a3 a4 (ix3 e c h) = outAt b a3 a4 e c h := rfl

attribute [local irreducible] Cert.Spec.swiglu

theorem hz3 : (![0, 0, 0] : Fin 3 → Nat) = fun _ => 0 := funext fun a => by fin_cases a <;> rfl

/-- Every window's block index at point `t` is (t, 0, 0). -/
theorem idx_facts : ∀ t : Fin cfg0.N, win0_0.index t = ![t.val, 0, 0] ∧ win0_1.index t = ![t.val, 0, 0]
    ∧ win0_2.index t = ![t.val, 0, 0] ∧ win0_3.index t = ![t.val, 0, 0] ∧ t.val < 64 :=
  (by decide +kernel : ∀ t : Fin grid0.N, _)

/-- Expert `t` as a first coordinate. -/
def ept (t : Fin cfg0.N) : Fin 64 := ⟨t.val, (idx_facts t).2.2.2.2⟩

/-- Entry (0, r, k) of the token-block window's block at point `t`, read off any array, is entry (t, r, k) of the array. -/
theorem read0 (A : (⟨S64x256x1024, .bf16⟩ : BufTy).Contents (Elt Ideal)) (t : Fin cfg0.N) (r : Fin 256) (k : Fin 1024) :
    ((cfg0.win 0).blk t).view.read (Elt Ideal) A (ix3 0 r k) = A (ix3 (ept t) r k) := by
  have e0 := (idx_facts t).1
  show A (((cfg0.win 0).blk t).view.emb (ix3 0 r k)) = A (ix3 (ept t) r k)
  refine congrArg A ?_
  funext a; apply Fin.ext
  match a with
  | ⟨0, _⟩ => show win0_0.index t (0 : Fin 3) * 1 + 1 * 0 = t.val; rw [e0]; show t.val * 1 + 1 * 0 = t.val; omega
  | ⟨1, _⟩ => show win0_0.index t (1 : Fin 3) * 256 + 1 * r.val = r.val; rw [e0]; show 0 * 256 + 1 * r.val = r.val; omega
  | ⟨2, _⟩ => show win0_0.index t (2 : Fin 3) * 1024 + 1 * k.val = k.val; rw [e0]; show 0 * 1024 + 1 * k.val = k.val; omega

/-- The same for the packed gate/up weights' window. -/
theorem read1 (A : (⟨S64x1024x1024, .f32⟩ : BufTy).Contents (Elt Ideal)) (t : Fin cfg0.N) (r : Fin 1024) (k : Fin 1024) :
    ((cfg0.win 1).blk t).view.read (Elt Ideal) A (ix3 0 r k) = A (ix3 (ept t) r k) := by
  have e0 := (idx_facts t).2.1
  show A (((cfg0.win 1).blk t).view.emb (ix3 0 r k)) = A (ix3 (ept t) r k)
  refine congrArg A ?_
  funext a; apply Fin.ext
  match a with
  | ⟨0, _⟩ => show win0_1.index t (0 : Fin 3) * 1 + 1 * 0 = t.val; rw [e0]; show t.val * 1 + 1 * 0 = t.val; omega
  | ⟨1, _⟩ => show win0_1.index t (1 : Fin 3) * 1024 + 1 * r.val = r.val; rw [e0]; show 0 * 1024 + 1 * r.val = r.val; omega
  | ⟨2, _⟩ => show win0_1.index t (2 : Fin 3) * 1024 + 1 * k.val = k.val; rw [e0]; show 0 * 1024 + 1 * k.val = k.val; omega

/-- The same for the down weights' window. -/
theorem read2 (A : (⟨S64x512x1024, .f32⟩ : BufTy).Contents (Elt Ideal)) (t : Fin cfg0.N) (r : Fin 512) (k : Fin 1024) :
    ((cfg0.win 2).blk t).view.read (Elt Ideal) A (ix3 0 r k) = A (ix3 (ept t) r k) := by
  have e0 := (idx_facts t).2.2.1
  show A (((cfg0.win 2).blk t).view.emb (ix3 0 r k)) = A (ix3 (ept t) r k)
  refine congrArg A ?_
  funext a; apply Fin.ext
  match a with
  | ⟨0, _⟩ => show win0_2.index t (0 : Fin 3) * 1 + 1 * 0 = t.val; rw [e0]; show t.val * 1 + 1 * 0 = t.val; omega
  | ⟨1, _⟩ => show win0_2.index t (1 : Fin 3) * 512 + 1 * r.val = r.val; rw [e0]; show 0 * 512 + 1 * r.val = r.val; omega
  | ⟨2, _⟩ => show win0_2.index t (2 : Fin 3) * 1024 + 1 * k.val = k.val; rw [e0]; show 0 * 1024 + 1 * k.val = k.val; omega

/-- The same for the output's window. -/
theorem read3 (A : (⟨S64x256x1024, .f32⟩ : BufTy).Contents (Elt Ideal)) (t : Fin cfg0.N) (r : Fin 256) (k : Fin 1024) :
    ((cfg0.win 3).blk t).view.read (Elt Ideal) A (ix3 0 r k) = A (ix3 (ept t) r k) := by
  have e0 := (idx_facts t).2.2.2.1
  show A (((cfg0.win 3).blk t).view.emb (ix3 0 r k)) = A (ix3 (ept t) r k)
  refine congrArg A ?_
  funext a; apply Fin.ext
  match a with
  | ⟨0, _⟩ => show win0_3.index t (0 : Fin 3) * 1 + 1 * 0 = t.val; rw [e0]; show t.val * 1 + 1 * 0 = t.val; omega
  | ⟨1, _⟩ => show win0_3.index t (1 : Fin 3) * 256 + 1 * r.val = r.val; rw [e0]; show 0 * 256 + 1 * r.val = r.val; omega
  | ⟨2, _⟩ => show win0_3.index t (2 : Fin 3) * 1024 + 1 * k.val = k.val; rw [e0]; show 0 * 1024 + 1 * k.val = k.val; omega

/-- What the body leaves at point `t`, for any arrays behind the three input windows: the output block is the block of
    `outArr` of those arrays. Entry (0, r, h) of the body's result is the expert function of the three staged blocks
    (the payload lemma), each block entry is its array's entry in slab `t`, and entry (0, r, h) of the output's block
    is index (t, r, h) of the output array. -/
theorem body_block (A0 : (⟨S64x256x1024, .bf16⟩ : BufTy).Contents (Elt Ideal)) (A1 : (⟨S64x1024x1024, .f32⟩ : BufTy).Contents (Elt Ideal))
    (A2 : (⟨S64x512x1024, .f32⟩ : BufTy).Contents (Elt Ideal)) (t : Fin cfg0.N) :
    (cfg0.win 3).cut (grid0.coords t) (out0_3 (((cfg0.win 0).blk t).view.read (Elt Ideal) A0)
        (((cfg0.win 1).blk t).view.read (Elt Ideal) A1) (((cfg0.win 2).blk t).view.read (Elt Ideal) A2))
      = ((cfg0.win 3).blk t).view.read (Elt Ideal) (outArr A0 A1 A2) := by
  unfold out0_3
  rw [View.canon_unit_zero hz3]
  simp only [View.ld_unit_zero (S := S1x256x1024) hz3, View.ld_unit_zero (S := S1x1024x1024) hz3,
    View.ld_unit_zero (S := S1x512x1024) hz3]
  funext y
  obtain ⟨z, r, h, rfl⟩ : ∃ (z : Fin 1) (r : Fin 256) (h : Fin 1024), y = ix3 z r h := ⟨y 0, y 1, y 2, eq_ix3 y⟩
  obtain rfl : z = 0 := Subsingleton.elim _ _
  refine (Cert.PayRead.pay_apply _ _ _ r h).trans ?_
  refine ((read3 (outArr A0 A1 A2) t r h).trans ?_).symm
  rw [outArr_ix3]
  unfold outAt
  have h0 : (fun (c : Fin 256) (k : Fin 1024) => ((cfg0.win 0).blk t).view.read (Elt Ideal) A0 (ix3 0 c k))
      = fun c k => A0 (ix3 (ept t) c k) := funext fun c => funext fun k => read0 A0 t c k
  have h1 : (fun (k : Fin 1024) (n : Fin 1024) => ((cfg0.win 1).blk t).view.read (Elt Ideal) A1 (ix3 0 k n))
      = fun k n => A1 (ix3 (ept t) k n) := funext fun k => funext fun n => read1 A1 t k n
  have h2 : (fun (i : Fin 512) (h : Fin 1024) => ((cfg0.win 2).blk t).view.read (Elt Ideal) A2 (ix3 0 i h))
      = fun i h => A2 (ix3 (ept t) i h) := funext fun i => funext fun h => read2 A2 t i h
  rw [h0, h1, h2]

/-- What point `t` writes back is block `t` of `outArr` of the arrays the region finds behind its input windows. -/
theorem flushed_eq (c : Dev nD) (t : Fin cfg0.N) :
    (dats m 0 c).flushed 3 t
      = ((cfg0.win 3).blk t).view.read (Elt Ideal) (outArr (V m c main_v53) (V m c main_arg3) (V m c main_arg4)) := by
  show (cfg0.win 3).cut (grid0.coords t) ((dats m 0 c).after 3 t) = _
  rw [after0_3]
  exact body_block (V m c main_v53) (V m c main_arg3) (V m c main_arg4) t

/-- An index of the output array is in point `t`'s block iff each coordinate is in the block's range on its axis. -/
theorem mem_blk (t : Fin cfg0.N) (i : S64x256x1024.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v54).slice (win0_3.rect t)).set ↔ _
  rw [View.set_slice_whole, Rect.mem_set_unit]
  exact Iff.rfl

/-- The 64 slabs tile the output array: index (e, c, h) is in the block of point `e`. -/
theorem cover (i : S64x256x1024.Idx) :
    ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 1024 := (i 2).isLt
  have hN : grid0.N = 64 := N_0
  have hlt : (i 0).val < cfg0.N := by show (i 0).val < grid0.N; omega
  refine ⟨⟨(i 0).val, hlt⟩, flush0_3 _, ?_⟩
  rw [mem_blk]
  have e3 := (idx_facts ⟨(i 0).val, hlt⟩).2.2.2.1
  intro a
  match a with
  | ⟨0, _⟩ =>
    show win0_3.index ⟨(i 0).val, hlt⟩ (0 : Fin 3) * 1 ≤ (i 0).val ∧ (i 0).val < win0_3.index ⟨(i 0).val, hlt⟩ (0 : Fin 3) * 1 + 1
    rw [e3]; show (i 0).val * 1 ≤ (i 0).val ∧ (i 0).val < (i 0).val * 1 + 1; omega
  | ⟨1, _⟩ =>
    show win0_3.index ⟨(i 0).val, hlt⟩ (1 : Fin 3) * 256 ≤ (i 1).val ∧ (i 1).val < win0_3.index ⟨(i 0).val, hlt⟩ (1 : Fin 3) * 256 + 256
    rw [e3]; show 0 * 256 ≤ (i 1).val ∧ (i 1).val < 0 * 256 + 256; omega
  | ⟨2, _⟩ =>
    show win0_3.index ⟨(i 0).val, hlt⟩ (2 : Fin 3) * 1024 ≤ (i 2).val ∧ (i 2).val < win0_3.index ⟨(i 0).val, hlt⟩ (2 : Fin 3) * 1024 + 1024
    rw [e3]; show 0 * 1024 ≤ (i 2).val ∧ (i 2).val < 0 * 1024 + 1024; omega

/-- The output array after the run: `outArr` of the arrays the region finds. -/
theorem final (c : Dev nD) :
    (dats m 0 c).arrAt 3 cfg0.N = outArr (V m c main_v53) (V m c main_arg3) (V m c main_arg4) :=
  (dats m 0 c).arrAt_eq_of_cover 3 _ (fun t _ => flushed_eq m c t) cover

end Cert.KernelIdeal.Blocks

end
-- ==== Proof.SpecHost.lean ====
/-
  The host side of the mixture-of-experts layer as pure functions of the argument arrays, in the reference's own
  operations: the stable sort permutation of the 8192 (token, choice) copies by expert id, each sorted copy's expert
  (`seg`) and source token, the per-expert counts and their exclusive prefix sums, each sorted copy's slot inside its
  expert's block, the (expert, slot) index pairs, the gathered token rows; and the return to token order of a
  [64, 256, 1024] array of expert outputs: row `k` of the gathered rows is the row at (seg k, slot k), scattered to
  row `sortPerm k` of a zero array. Negative indices are wrapped by the axis length exactly as the program does.
-/
import proofs.«136024_j37752762532030_2_alg».proof.Proof.Gen.ReferenceIdeal
import Idealize.ShloMosaic.PureOps.Ideal

noncomputable section

namespace Cert.Spec

open Cert.ReferenceIdeal Cert.ReferenceIdeal.Facts₀ Idealize.ShloMosaic

/-- Two index columns side by side: row k of the result is the pair (x k, y k). -/
def pairIdx (x y : (⟨S8192x1, .i32⟩ : BufTy).Contents (Elt Ideal)) : (⟨S8192x2, .i32⟩ : BufTy).Contents (Elt Ideal) :=
  concatenate S8192x2 1 [⟨S8192x1, x⟩, ⟨S8192x1, y⟩] concatenates_S8192x1_S8192x1_S8192x2_d1

/-- The stable sort permutation of the flattened expert ids: position k of the sorted order holds copy `sortPerm k`. -/
def sortPerm (a2 : (⟨S1024x8, .i32⟩ : BufTy).Contents (Elt Ideal)) : (⟨S8192, .i32⟩ : BufTy).Contents (Elt Ideal) :=
  ((fun x y => (Host.sort2 S8192 0 comparator_i32_i32_d0 x y).2) (shapeCast S8192 a2 shapeCasts_S1024x8_S8192) ((iotaInDim S8192 32 0) : (⟨S8192, .i32⟩ : BufTy).Contents (Elt Ideal)) : (⟨S8192, .i32⟩ : BufTy).Contents (Elt Ideal))

/-- The expert id of the k-th copy in sorted order. -/
def seg (a2 : (⟨S1024x8, .i32⟩ : BufTy).Contents (Elt Ideal)) : (⟨S8192, .i32⟩ : BufTy).Contents (Elt Ideal) :=
  (((fun x i => Host.gather gather_S8192_S8192x1_S8192_n_0_n_n_0_1_1 x i) : (⟨S8192, .i32⟩ : BufTy).Contents (Elt Ideal) → (⟨S8192x1, .i32⟩ : BufTy).Contents (Elt Ideal) → (⟨S8192, .i32⟩ : BufTy).Contents (Elt Ideal)) (shapeCast S8192 a2 shapeCasts_S1024x8_S8192) ((broadcastInDim S8192x1 ![0] bcast_S8192_S8192x1_0 : (⟨S8192, .i32⟩ : BufTy).Contents (Elt Ideal) → (⟨S8192x1, .i32⟩ : BufTy).Contents (Elt Ideal)) ((select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)) ((cmpi .slt : (⟨S8192, .i32⟩ : BufTy).Contents (Elt Ideal) → (⟨S8192, .i32⟩ : BufTy).Contents (Elt Ideal) → (⟨S8192, .i1⟩ : BufTy).Contents (Elt Ideal)) (sortPerm a2) ((broadcastInDim S8192 ![] bcast_S_S8192 : (⟨S_, .i32⟩ : BufTy).Contents (Elt Ideal) → (⟨S8192, .i32⟩ : BufTy).Contents (Elt Ideal)) ((constantI S_ 32 0#32)) : (⟨S8192, .i32⟩ : BufTy).Contents (Elt Ideal)) : (⟨S8192, .i1⟩ : BufTy).Contents (Elt Ideal)) ((addi : (⟨S8192, .i32⟩ : BufTy).Contents (Elt Ideal) → (⟨S8192, .i32⟩ : BufTy).Contents (Elt Ideal) → (⟨S8192, .i32⟩ : BufTy).Contents (Elt Ideal)) (sortPerm a2) ((broadcastInDim S8192 ![] bcast_S_S8192 : (⟨S_, .i32⟩ : BufTy).Contents (Elt Ideal) → (⟨S8192, .i32⟩ : BufTy).Contents (Elt Ideal)) ((constantI S_ 32 8192#32)) : (⟨S8192, .i32⟩ : BufTy).Contents (Elt Ideal)) : (⟨S8192, .i32⟩ : BufTy).Contents (Elt Ideal)) (sortPerm a2) : (⟨S8192, .i32⟩ : BufTy).Contents (Elt Ideal)) : (⟨S8192x1, .i32⟩ : BufTy).Contents (Elt Ideal)) : (⟨S8192, .i32⟩ : BufTy).Contents (Elt Ideal))

/-- The token (copy index divided by 8, rounded down) of the k-th sorted copy. -/
def tokenOf (a2 : (⟨S1024x8, .i32⟩ : BufTy).Contents (Elt Ideal)) : (⟨S8192, .i32⟩ : BufTy).Contents (Elt Ideal) :=
  (select (andi ((cmpi .ne) (signi (sortPerm a2) : (⟨S8192, .i32⟩ : BufTy).Contents (Elt Ideal)) ((broadcastInDim S8192 ![] bcast_S_S8192) (signi (id ((constantI S_ 32 8#32)) : (⟨S_, .i32⟩ : BufTy).Contents (Elt Ideal)) : (⟨S_, .i32⟩ : BufTy).Contents (Elt Ideal)) : (⟨S8192, .i32⟩ : BufTy).Contents (Elt Ideal)) : (⟨S8192, .i1⟩ : BufTy).Contents (Elt Ideal)) ((cmpi .ne) (Host.remsi (sortPerm a2) ((broadcastInDim S8192 ![] bcast_S_S8192) (id ((constantI S_ 32 8#32)) : (⟨S_, .i32⟩ : BufTy).Contents (Elt Ideal)) : (⟨S8192, .i32⟩ : BufTy).Contents (Elt Ideal)) : (⟨S8192, .i32⟩ : BufTy).Contents (Elt Ideal)) ((broadcastInDim S8192 ![] bcast_S_S8192) ((constantI S_ 32 0#32) : (⟨S_, .i32⟩ : BufTy).Contents (Elt Ideal)) : (⟨S8192, .i32⟩ : BufTy).Contents (Elt Ideal)) : (⟨S8192, .i1⟩ : BufTy).Contents (Elt Ideal)) : (⟨S8192, .i1⟩ : BufTy).Contents (Elt Ideal)) (subi (Host.divsi (sortPerm a2) ((broadcastInDim S8192 ![] bcast_S_S8192) (id ((constantI S_ 32 8#32)) : (⟨S_, .i32⟩ : BufTy).Contents (Elt Ideal)) : (⟨S8192, .i32⟩ : BufTy).Contents (Elt Ideal)) : (⟨S8192, .i32⟩ : BufTy).Contents (Elt Ideal)) ((broadcastInDim S8192 ![] bcast_S_S8192) ((constantI S_ 32 1#32) : (⟨S_, .i32⟩ : BufTy).Contents (Elt Ideal)) : (⟨S8192, .i32⟩ : BufTy).Contents (Elt Ideal)) : (⟨S8192, .i32⟩ : BufTy).Contents (Elt Ideal)) (Host.divsi (sortPerm a2) ((broadcastInDim S8192 ![] bcast_S_S8192) (id ((constantI S_ 32 8#32)) : (⟨S_, .i32⟩ : BufTy).Contents (Elt Ideal)) : (⟨S8192, .i32⟩ : BufTy).Contents (Elt Ideal)) : (⟨S8192, .i32⟩ : BufTy).Contents (Elt Ideal)) : (⟨S8192, .i32⟩ : BufTy).Contents (Elt Ideal))

/-- The token rows in sorted order. -/
def rows (a0 : (⟨S1024x1024, .f32⟩ : BufTy).Contents (Elt Ideal)) (a2 : (⟨S1024x8, .i32⟩ : BufTy).Contents (Elt Ideal)) : (⟨S8192x1024, .f32⟩ : BufTy).Contents (Elt Ideal) :=
  (((fun x i => Host.gather gather_S1024x1024_S8192x1_S8192x1024_1_0_n_n_0_1_11024 x i) : (⟨S1024x1024, .f32⟩ : BufTy).Contents (Elt Ideal) → (⟨S8192x1, .i32⟩ : BufTy).Contents (Elt Ideal) → (⟨S8192x1024, .f32⟩ : BufTy).Contents (Elt Ideal)) a0 ((broadcastInDim S8192x1 ![0] bcast_S8192_S8192x1_0 : (⟨S8192, .i32⟩ : BufTy).Contents (Elt Ideal) → (⟨S8192x1, .i32⟩ : BufTy).Contents (Elt Ideal)) ((select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)) ((cmpi .slt : (⟨S8192, .i32⟩ : BufTy).Contents (Elt Ideal) → (⟨S8192, .i32⟩ : BufTy).Contents (Elt Ideal) → (⟨S8192, .i1⟩ : BufTy).Contents (Elt Ideal)) (tokenOf a2) ((broadcastInDim S8192 ![] bcast_S_S8192 : (⟨S_, .i32⟩ : BufTy).Contents (Elt Ideal) → (⟨S8192, .i32⟩ : BufTy).Contents (Elt Ideal)) ((constantI S_ 32 0#32)) : (⟨S8192, .i32⟩ : BufTy).Contents (Elt Ideal)) : (⟨S8192, .i1⟩ : BufTy).Contents (Elt Ideal)) ((addi : (⟨S8192, .i32⟩ : BufTy).Contents (Elt Ideal) → (⟨S8192, .i32⟩ : BufTy).Contents (Elt Ideal) → (⟨S8192, .i32⟩ : BufTy).Contents (Elt Ideal)) (tokenOf a2) ((broadcastInDim S8192 ![] bcast_S_S8192 : (⟨S_, .i32⟩ : BufTy).Contents (Elt Ideal) → (⟨S8192, .i32⟩ : BufTy).Contents (Elt Ideal)) ((constantI S_ 32 1024#32)) : (⟨S8192, .i32⟩ : BufTy).Contents (Elt Ideal)) : (⟨S8192, .i32⟩ : BufTy).Contents (Elt Ideal)) (tokenOf a2) : (⟨S8192, .i32⟩ : BufTy).Contents (Elt Ideal)) : (⟨S8192x1, .i32⟩ : BufTy).Contents (Elt Ideal)) : (⟨S8192x1024, .f32⟩ : BufTy).Contents (Elt Ideal))

/-- How many copies each expert receives. -/
def counts (a2 : (⟨S1024x8, .i32⟩ : BufTy).Contents (Elt Ideal)) : (⟨S64, .i32⟩ : BufTy).Contents (Elt Ideal) :=
  (((fun x i u => Host.scatter scatter_S64_S8192x1_S8192_n_0_0_1 IntOp.addi x i u) : (⟨S64, .i32⟩ : BufTy).Contents (Elt Ideal) → (⟨S8192x1, .i32⟩ : BufTy).Contents (Elt Ideal) → (⟨S8192, .i32⟩ : BufTy).Contents (Elt Ideal) → (⟨S64, .i32⟩ : BufTy).Contents (Elt Ideal)) ((broadcastInDim S64 ![] bcast_S_S64 : (⟨S_, .i32⟩ : BufTy).Contents (Elt Ideal) → (⟨S64, .i32⟩ : BufTy).Contents (Elt Ideal)) ((constantI S_ 32 0#32)) : (⟨S64, .i32⟩ : BufTy).Contents (Elt Ideal)) ((broadcastInDim S8192x1 ![0] bcast_S8192_S8192x1_0 : (⟨S8192, .i32⟩ : BufTy).Contents (Elt Ideal) → (⟨S8192x1, .i32⟩ : BufTy).Contents (Elt Ideal)) ((select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)) ((cmpi .slt : (⟨S8192, .i32⟩ : BufTy).Contents (Elt Ideal) → (⟨S8192, .i32⟩ : BufTy).Contents (Elt Ideal) → (⟨S8192, .i1⟩ : BufTy).Contents (Elt Ideal)) (maxsi ((broadcastInDim S8192 ![] bcast_S_S8192) (id ((constantI S_ 32 0#32)) : (⟨S_, .i32⟩ : BufTy).Contents (Elt Ideal)) : (⟨S8192, .i32⟩ : BufTy).Contents (Elt Ideal)) (shapeCast S8192 a2 shapeCasts_S1024x8_S8192) : (⟨S8192, .i32⟩ : BufTy).Contents (Elt Ideal)) ((broadcastInDim S8192 ![] bcast_S_S8192 : (⟨S_, .i32⟩ : BufTy).Contents (Elt Ideal) → (⟨S8192, .i32⟩ : BufTy).Contents (Elt Ideal)) ((constantI S_ 32 0#32)) : (⟨S8192, .i32⟩ : BufTy).Contents (Elt Ideal)) : (⟨S8192, .i1⟩ : BufTy).Contents (Elt Ideal)) ((addi : (⟨S8192, .i32⟩ : BufTy).Contents (Elt Ideal) → (⟨S8192, .i32⟩ : BufTy).Contents (Elt Ideal) → (⟨S8192, .i32⟩ : BufTy).Contents (Elt Ideal)) (maxsi ((broadcastInDim S8192 ![] bcast_S_S8192) (id ((constantI S_ 32 0#32)) : (⟨S_, .i32⟩ : BufTy).Contents (Elt Ideal)) : (⟨S8192, .i32⟩ : BufTy).Contents (Elt Ideal)) (shapeCast S8192 a2 shapeCasts_S1024x8_S8192) : (⟨S8192, .i32⟩ : BufTy).Contents (Elt Ideal)) ((broadcastInDim S8192 ![] bcast_S_S8192 : (⟨S_, .i32⟩ : BufTy).Contents (Elt Ideal) → (⟨S8192, .i32⟩ : BufTy).Contents (Elt Ideal)) ((constantI S_ 32 64#32)) : (⟨S8192, .i32⟩ : BufTy).Contents (Elt Ideal)) : (⟨S8192, .i32⟩ : BufTy).Contents (Elt Ideal)) (maxsi ((broadcastInDim S8192 ![] bcast_S_S8192) (id ((constantI S_ 32 0#32)) : (⟨S_, .i32⟩ : BufTy).Contents (Elt Ideal)) : (⟨S8192, .i32⟩ : BufTy).Contents (Elt Ideal)) (shapeCast S8192 a2 shapeCasts_S1024x8_S8192) : (⟨S8192, .i32⟩ : BufTy).Contents (Elt Ideal)) : (⟨S8192, .i32⟩ : BufTy).Contents (Elt Ideal)) : (⟨S8192x1, .i32⟩ : BufTy).Contents (Elt Ideal)) ((broadcastInDim S8192 ![] bcast_S_S8192 : (⟨S_, .i32⟩ : BufTy).Contents (Elt Ideal) → (⟨S8192, .i32⟩ : BufTy).Contents (Elt Ideal)) ((constantI S_ 32 1#32)) : (⟨S8192, .i32⟩ : BufTy).Contents (Elt Ideal)) : (⟨S64, .i32⟩ : BufTy).Contents (Elt Ideal))

/-- Where each expert's run begins in the sorted order: the inclusive prefix sums of the counts, less the counts. -/
def starts (a2 : (⟨S1024x8, .i32⟩ : BufTy).Contents (Elt Ideal)) : (⟨S64, .i32⟩ : BufTy).Contents (Elt Ideal) :=
  ((subi : (⟨S64, .i32⟩ : BufTy).Contents (Elt Ideal) → (⟨S64, .i32⟩ : BufTy).Contents (Elt Ideal) → (⟨S64, .i32⟩ : BufTy).Contents (Elt Ideal)) ((fun x v => Host.reduceWindow IntOp.addi ![64] ![1] ![63] ![0] x v reduceWindows_S64_S64_w64s1p63_0 h_S_) (counts a2) ((broadcastInDim S_ ![] bcast_S_S_) ((constantI S_ 32 0#32) : (⟨S_, .i32⟩ : BufTy).Contents (Elt Ideal)) : (⟨S_, .i32⟩ : BufTy).Contents (Elt Ideal)) : (⟨S64, .i32⟩ : BufTy).Contents (Elt Ideal)) (counts a2) : (⟨S64, .i32⟩ : BufTy).Contents (Elt Ideal))

/-- The k-th sorted copy's position inside its expert's run. -/
def slot (a2 : (⟨S1024x8, .i32⟩ : BufTy).Contents (Elt Ideal)) : (⟨S8192, .i32⟩ : BufTy).Contents (Elt Ideal) :=
  ((subi : (⟨S8192, .i32⟩ : BufTy).Contents (Elt Ideal) → (⟨S8192, .i32⟩ : BufTy).Contents (Elt Ideal) → (⟨S8192, .i32⟩ : BufTy).Contents (Elt Ideal)) ((iotaInDim S8192 32 0)) (((fun x i => Host.gather gather_S64_S8192x1_S8192_n_0_n_n_0_1_1 x i) : (⟨S64, .i32⟩ : BufTy).Contents (Elt Ideal) → (⟨S8192x1, .i32⟩ : BufTy).Contents (Elt Ideal) → (⟨S8192, .i32⟩ : BufTy).Contents (Elt Ideal)) (starts a2) ((broadcastInDim S8192x1 ![0] bcast_S8192_S8192x1_0 : (⟨S8192, .i32⟩ : BufTy).Contents (Elt Ideal) → (⟨S8192x1, .i32⟩ : BufTy).Contents (Elt Ideal)) ((select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)) ((cmpi .slt : (⟨S8192, .i32⟩ : BufTy).Contents (Elt Ideal) → (⟨S8192, .i32⟩ : BufTy).Contents (Elt Ideal) → (⟨S8192, .i1⟩ : BufTy).Contents (Elt Ideal)) (seg a2) ((broadcastInDim S8192 ![] bcast_S_S8192 : (⟨S_, .i32⟩ : BufTy).Contents (Elt Ideal) → (⟨S8192, .i32⟩ : BufTy).Contents (Elt Ideal)) ((constantI S_ 32 0#32)) : (⟨S8192, .i32⟩ : BufTy).Contents (Elt Ideal)) : (⟨S8192, .i1⟩ : BufTy).Contents (Elt Ideal)) ((addi : (⟨S8192, .i32⟩ : BufTy).Contents (Elt Ideal) → (⟨S8192, .i32⟩ : BufTy).Contents (Elt Ideal) → (⟨S8192, .i32⟩ : BufTy).Contents (Elt Ideal)) (seg a2) ((broadcastInDim S8192 ![] bcast_S_S8192 : (⟨S_, .i32⟩ : BufTy).Contents (Elt Ideal) → (⟨S8192, .i32⟩ : BufTy).Contents (Elt Ideal)) ((constantI S_ 32 64#32)) : (⟨S8192, .i32⟩ : BufTy).Contents (Elt Ideal)) : (⟨S8192, .i32⟩ : BufTy).Contents (Elt Ideal)) (seg a2) : (⟨S8192, .i32⟩ : BufTy).Contents (Elt Ideal)) : (⟨S8192x1, .i32⟩ : BufTy).Contents (Elt Ideal)) : (⟨S8192, .i32⟩ : BufTy).Contents (Elt Ideal)) : (⟨S8192, .i32⟩ : BufTy).Contents (Elt Ideal))

/-- The expert ids as a column, negative entries wrapped by the number of experts. -/
def segCol (a2 : (⟨S1024x8, .i32⟩ : BufTy).Contents (Elt Ideal)) : (⟨S8192x1, .i32⟩ : BufTy).Contents (Elt Ideal) :=
  ((broadcastInDim S8192x1 ![0] bcast_S8192_S8192x1_0 : (⟨S8192, .i32⟩ : BufTy).Contents (Elt Ideal) → (⟨S8192x1, .i32⟩ : BufTy).Contents (Elt Ideal)) ((select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)) ((cmpi .slt : (⟨S8192, .i32⟩ : BufTy).Contents (Elt Ideal) → (⟨S8192, .i32⟩ : BufTy).Contents (Elt Ideal) → (⟨S8192, .i1⟩ : BufTy).Contents (Elt Ideal)) (seg a2) ((broadcastInDim S8192 ![] bcast_S_S8192 : (⟨S_, .i32⟩ : BufTy).Contents (Elt Ideal) → (⟨S8192, .i32⟩ : BufTy).Contents (Elt Ideal)) ((constantI S_ 32 0#32)) : (⟨S8192, .i32⟩ : BufTy).Contents (Elt Ideal)) : (⟨S8192, .i1⟩ : BufTy).Contents (Elt Ideal)) ((addi : (⟨S8192, .i32⟩ : BufTy).Contents (Elt Ideal) → (⟨S8192, .i32⟩ : BufTy).Contents (Elt Ideal) → (⟨S8192, .i32⟩ : BufTy).Contents (Elt Ideal)) (seg a2) ((broadcastInDim S8192 ![] bcast_S_S8192 : (⟨S_, .i32⟩ : BufTy).Contents (Elt Ideal) → (⟨S8192, .i32⟩ : BufTy).Contents (Elt Ideal)) ((constantI S_ 32 64#32)) : (⟨S8192, .i32⟩ : BufTy).Contents (Elt Ideal)) : (⟨S8192, .i32⟩ : BufTy).Contents (Elt Ideal)) (seg a2) : (⟨S8192, .i32⟩ : BufTy).Contents (Elt Ideal)) : (⟨S8192x1, .i32⟩ : BufTy).Contents (Elt Ideal))

/-- The slots as a column, negative entries wrapped by the block height. -/
def slotCol (a2 : (⟨S1024x8, .i32⟩ : BufTy).Contents (Elt Ideal)) : (⟨S8192x1, .i32⟩ : BufTy).Contents (Elt Ideal) :=
  ((broadcastInDim S8192x1 ![0] bcast_S8192_S8192x1_0 : (⟨S8192, .i32⟩ : BufTy).Contents (Elt Ideal) → (⟨S8192x1, .i32⟩ : BufTy).Contents (Elt Ideal)) ((select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)) ((cmpi .slt : (⟨S8192, .i32⟩ : BufTy).Contents (Elt Ideal) → (⟨S8192, .i32⟩ : BufTy).Contents (Elt Ideal) → (⟨S8192, .i1⟩ : BufTy).Contents (Elt Ideal)) (slot a2) ((broadcastInDim S8192 ![] bcast_S_S8192 : (⟨S_, .i32⟩ : BufTy).Contents (Elt Ideal) → (⟨S8192, .i32⟩ : BufTy).Contents (Elt Ideal)) ((constantI S_ 32 0#32)) : (⟨S8192, .i32⟩ : BufTy).Contents (Elt Ideal)) : (⟨S8192, .i1⟩ : BufTy).Contents (Elt Ideal)) ((addi : (⟨S8192, .i32⟩ : BufTy).Contents (Elt Ideal) → (⟨S8192, .i32⟩ : BufTy).Contents (Elt Ideal) → (⟨S8192, .i32⟩ : BufTy).Contents (Elt Ideal)) (slot a2) ((broadcastInDim S8192 ![] bcast_S_S8192 : (⟨S_, .i32⟩ : BufTy).Contents (Elt Ideal) → (⟨S8192, .i32⟩ : BufTy).Contents (Elt Ideal)) ((constantI S_ 32 256#32)) : (⟨S8192, .i32⟩ : BufTy).Contents (Elt Ideal)) : (⟨S8192, .i32⟩ : BufTy).Contents (Elt Ideal)) (slot a2) : (⟨S8192, .i32⟩ : BufTy).Contents (Elt Ideal)) : (⟨S8192x1, .i32⟩ : BufTy).Contents (Elt Ideal))

/-- The (expert, slot) pair of each sorted copy. -/
def slotIdx (a2 : (⟨S1024x8, .i32⟩ : BufTy).Contents (Elt Ideal)) : (⟨S8192x2, .i32⟩ : BufTy).Contents (Elt Ideal) :=
  (pairIdx (segCol a2) (slotCol a2))

/-- The per-expert token blocks: the sorted rows written at their (expert, slot) pairs into an array filled with `z`. -/
def dispatch (z : (⟨S_, .f32⟩ : BufTy).Contents (Elt Ideal)) (a0 : (⟨S1024x1024, .f32⟩ : BufTy).Contents (Elt Ideal)) (a2 : (⟨S1024x8, .i32⟩ : BufTy).Contents (Elt Ideal)) : (⟨S64x256x1024, .f32⟩ : BufTy).Contents (Elt Ideal) :=
  (((fun x i u => Host.scatter scatter_S64x256x1024_S8192x2_S8192x1024_1_01_01_1 (fun _ b => b) x i u) : (⟨S64x256x1024, .f32⟩ : BufTy).Contents (Elt Ideal) → (⟨S8192x2, .i32⟩ : BufTy).Contents (Elt Ideal) → (⟨S8192x1024, .f32⟩ : BufTy).Contents (Elt Ideal) → (⟨S64x256x1024, .f32⟩ : BufTy).Contents (Elt Ideal)) ((broadcastInDim S64x256x1024 ![] bcast_S_S64x256x1024 : (⟨S_, .f32⟩ : BufTy).Contents (Elt Ideal) → (⟨S64x256x1024, .f32⟩ : BufTy).Contents (Elt Ideal)) z : (⟨S64x256x1024, .f32⟩ : BufTy).Contents (Elt Ideal)) (slotIdx a2) (rows a0 a2) : (⟨S64x256x1024, .f32⟩ : BufTy).Contents (Elt Ideal))

/-- The return to token order of the experts' outputs `o`, given each sorted copy's expert, slot and source copy. -/
def combine (o : (⟨S64x256x1024, .f32⟩ : BufTy).Contents (Elt Ideal)) (sg sl sp : (⟨S8192, .i32⟩ : BufTy).Contents (Elt Ideal)) : (⟨S8192x1024, .f32⟩ : BufTy).Contents (Elt Ideal) :=
  (((fun x i u => Host.scatter scatter_S8192x1024_S8192x1_S8192x1024_1_0_0_1 (fun _ b => b) x i u) : (⟨S8192x1024, .f32⟩ : BufTy).Contents (Elt Ideal) → (⟨S8192x1, .i32⟩ : BufTy).Contents (Elt Ideal) → (⟨S8192x1024, .f32⟩ : BufTy).Contents (Elt Ideal) → (⟨S8192x1024, .f32⟩ : BufTy).Contents (Elt Ideal)) ((broadcastInDim S8192x1024 ![] bcast_S_S8192x1024 : (⟨S_, .f32⟩ : BufTy).Contents (Elt Ideal) → (⟨S8192x1024, .f32⟩ : BufTy).Contents (Elt Ideal)) ((constant (F := Ideal) S_ .f32 0x00000000#32)) : (⟨S8192x1024, .f32⟩ : BufTy).Contents (Elt Ideal)) ((broadcastInDim S8192x1 ![0] bcast_S8192_S8192x1_0 : (⟨S8192, .i32⟩ : BufTy).Contents (Elt Ideal) → (⟨S8192x1, .i32⟩ : BufTy).Contents (Elt Ideal)) ((select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)) ((cmpi .slt : (⟨S8192, .i32⟩ : BufTy).Contents (Elt Ideal) → (⟨S8192, .i32⟩ : BufTy).Contents (Elt Ideal) → (⟨S8192, .i1⟩ : BufTy).Contents (Elt Ideal)) sp ((broadcastInDim S8192 ![] bcast_S_S8192 : (⟨S_, .i32⟩ : BufTy).Contents (Elt Ideal) → (⟨S8192, .i32⟩ : BufTy).Contents (Elt Ideal)) ((constantI S_ 32 0#32)) : (⟨S8192, .i32⟩ : BufTy).Contents (Elt Ideal)) : (⟨S8192, .i1⟩ : BufTy).Contents (Elt Ideal)) ((addi : (⟨S8192, .i32⟩ : BufTy).Contents (Elt Ideal) → (⟨S8192, .i32⟩ : BufTy).Contents (Elt Ideal) → (⟨S8192, .i32⟩ : BufTy).Contents (Elt Ideal)) sp ((broadcastInDim S8192 ![] bcast_S_S8192 : (⟨S_, .i32⟩ : BufTy).Contents (Elt Ideal) → (⟨S8192, .i32⟩ : BufTy).Contents (Elt Ideal)) ((constantI S_ 32 8192#32)) : (⟨S8192, .i32⟩ : BufTy).Contents (Elt Ideal)) : (⟨S8192, .i32⟩ : BufTy).Contents (Elt Ideal)) sp : (⟨S8192, .i32⟩ : BufTy).Contents (Elt Ideal)) : (⟨S8192x1, .i32⟩ : BufTy).Contents (Elt Ideal)) (((fun x i => Host.gather gather_S64x256x1024_S8192x2_S8192x1024_1_01_n_n_01_1_111024 x i) : (⟨S64x256x1024, .f32⟩ : BufTy).Contents (Elt Ideal) → (⟨S8192x2, .i32⟩ : BufTy).Contents (Elt Ideal) → (⟨S8192x1024, .f32⟩ : BufTy).Contents (Elt Ideal)) o (pairIdx ((broadcastInDim S8192x1 ![0] bcast_S8192_S8192x1_0 : (⟨S8192, .i32⟩ : BufTy).Contents (Elt Ideal) → (⟨S8192x1, .i32⟩ : BufTy).Contents (Elt Ideal)) ((select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)) ((cmpi .slt : (⟨S8192, .i32⟩ : BufTy).Contents (Elt Ideal) → (⟨S8192, .i32⟩ : BufTy).Contents (Elt Ideal) → (⟨S8192, .i1⟩ : BufTy).Contents (Elt Ideal)) sg ((broadcastInDim S8192 ![] bcast_S_S8192 : (⟨S_, .i32⟩ : BufTy).Contents (Elt Ideal) → (⟨S8192, .i32⟩ : BufTy).Contents (Elt Ideal)) ((constantI S_ 32 0#32)) : (⟨S8192, .i32⟩ : BufTy).Contents (Elt Ideal)) : (⟨S8192, .i1⟩ : BufTy).Contents (Elt Ideal)) ((addi : (⟨S8192, .i32⟩ : BufTy).Contents (Elt Ideal) → (⟨S8192, .i32⟩ : BufTy).Contents (Elt Ideal) → (⟨S8192, .i32⟩ : BufTy).Contents (Elt Ideal)) sg ((broadcastInDim S8192 ![] bcast_S_S8192 : (⟨S_, .i32⟩ : BufTy).Contents (Elt Ideal) → (⟨S8192, .i32⟩ : BufTy).Contents (Elt Ideal)) ((constantI S_ 32 64#32)) : (⟨S8192, .i32⟩ : BufTy).Contents (Elt Ideal)) : (⟨S8192, .i32⟩ : BufTy).Contents (Elt Ideal)) sg : (⟨S8192, .i32⟩ : BufTy).Contents (Elt Ideal)) : (⟨S8192x1, .i32⟩ : BufTy).Contents (Elt Ideal)) ((broadcastInDim S8192x1 ![0] bcast_S8192_S8192x1_0 : (⟨S8192, .i32⟩ : BufTy).Contents (Elt Ideal) → (⟨S8192x1, .i32⟩ : BufTy).Contents (Elt Ideal)) ((select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)) ((cmpi .slt : (⟨S8192, .i32⟩ : BufTy).Contents (Elt Ideal) → (⟨S8192, .i32⟩ : BufTy).Contents (Elt Ideal) → (⟨S8192, .i1⟩ : BufTy).Contents (Elt Ideal)) sl ((broadcastInDim S8192 ![] bcast_S_S8192 : (⟨S_, .i32⟩ : BufTy).Contents (Elt Ideal) → (⟨S8192, .i32⟩ : BufTy).Contents (Elt Ideal)) ((constantI S_ 32 0#32)) : (⟨S8192, .i32⟩ : BufTy).Contents (Elt Ideal)) : (⟨S8192, .i1⟩ : BufTy).Contents (Elt Ideal)) ((addi : (⟨S8192, .i32⟩ : BufTy).Contents (Elt Ideal) → (⟨S8192, .i32⟩ : BufTy).Contents (Elt Ideal) → (⟨S8192, .i32⟩ : BufTy).Contents (Elt Ideal)) sl ((broadcastInDim S8192 ![] bcast_S_S8192 : (⟨S_, .i32⟩ : BufTy).Contents (Elt Ideal) → (⟨S8192, .i32⟩ : BufTy).Contents (Elt Ideal)) ((constantI S_ 32 256#32)) : (⟨S8192, .i32⟩ : BufTy).Contents (Elt Ideal)) : (⟨S8192, .i32⟩ : BufTy).Contents (Elt Ideal)) sl : (⟨S8192, .i32⟩ : BufTy).Contents (Elt Ideal)) : (⟨S8192x1, .i32⟩ : BufTy).Contents (Elt Ideal))) : (⟨S8192x1024, .f32⟩ : BufTy).Contents (Elt Ideal)) : (⟨S8192x1024, .f32⟩ : BufTy).Contents (Elt Ideal))

end Cert.Spec

end
-- ==== Proof.KHost.lean ====
/-
  The kernel program's host operations before the region read as values. From the argument arrays the program computes
  the same dispatch as the reference — the sort permutation, the expert ids, the slots, and the per-expert token blocks
  (rounded to the narrower float format, which changes nothing on the extended reals, into a buffer filled with that
  format's zero).

  The operations before the region are read in two stretches. After the first (everything up to the per-expert
  counts) four buffers hold the sort permutation, the expert ids, the sorted token rows and the counts. The second
  stretch is read over ANY contents that hold those four values: it keeps the permutation and the expert ids, and
  computes the slots and the token blocks from them. A scatter whose index pairs are two columns side by side
  is read in two steps: its operands — the two columns and the rows — each as its own function of the arguments, then
  the operation on equal operands.
-/
import proofs.«136024_j37752762532030_2_alg».proof.Proof.Gen.KernelIdeal.Frame
import proofs.«136024_j37752762532030_2_alg».proof.Proof.SpecHost
import Idealize.ShloMosaic.Lib.StableHlo.Run

set_option maxRecDepth 16384

noncomputable section

namespace Cert.KernelIdeal.HostRead

open Cert.KernelIdeal Cert.KernelIdeal.Facts₀ Cert.KernelIdeal.Gen Idealize.ShloMosaic Idealize.ShloMosaic.TcCoe
open Idealize.SL Idealize.SL.Sem Idealize.ShloMosaic.StableHlo

attribute [local irreducible] Host.sort2 Host.gather Host.scatter Host.reduceWindow

/-- A scatter of rows at index pairs into a splat, from operands equal to the dispatch's, is the dispatch. -/
theorem dispatch_of {z : (⟨S_, .bf16⟩ : BufTy).Contents (Elt Ideal)} {a0 : (⟨S1024x1024, .f32⟩ : BufTy).Contents (Elt Ideal)}
    {a2 : (⟨S1024x8, .i32⟩ : BufTy).Contents (Elt Ideal)} {x y : (⟨S8192x1, .i32⟩ : BufTy).Contents (Elt Ideal)}
    {r : (⟨S8192x1024, .bf16⟩ : BufTy).Contents (Elt Ideal)}
    (hx : x = Cert.Spec.segCol a2) (hy : y = Cert.Spec.slotCol a2) (hr : r = Cert.Spec.rows a0 a2) :
    Host.scatter scatter_S64x256x1024_S8192x2_S8192x1024_1_01_01_1 (fun _ b => b)
        (broadcastInDim S64x256x1024 ![] Facts₀.bcast_S_S64x256x1024 z : (⟨S64x256x1024, .bf16⟩ : BufTy).Contents (Elt Ideal))
        (concatenate S8192x2 1 [⟨S8192x1, x⟩, ⟨S8192x1, y⟩] Facts₀.concatenates_S8192x1_S8192x1_S8192x2_d1) r
      = Cert.Spec.dispatch z a0 a2 := by
  subst hx hy hr
  rfl

/-- Running two lines one after the other is running their concatenation. -/
theorem after_append {τ : Topo} {sig : RefSig} {Val : EltTy → Type} (l₁ l₂ : List (HloOp τ sig Val))
    (V : Valuation τ sig Val) : StableHlo.after (l₁ ++ l₂) V = StableHlo.after l₂ (StableHlo.after l₁ V) := by
  induction l₁ generalizing V with
  | nil => rfl
  | cons op l ih => exact ih (op.result V)

variable (m : (ℓ : Loc nD τ sig) → Buf (Elt Ideal) ℓ)

/-! ## Before the region: the first stretch -/

/-- Core `c`'s contents after the host operations up to the per-expert counts. -/
abbrev A0 (c : Dev nD) : Valuation τ sig (Elt Ideal) :=
  StableHlo.after (List.flatten [hostOps0, hostOps0_1, hostOps0_2, hostOps0_3, hostOps0_4, hostOps0_5, hostOps0_6]) (fun b => m (c, b))

/-- The region is entered after the second stretch, run from there. -/
theorem V0_eq (c : Dev nD) : V0 m c = StableHlo.after (hostOps0_7 ++ hostOps0_8) (A0 m c) := by
  dsimp only [V0, A0]
  rw [← after_append]
  refine congrArg (fun l => StableHlo.after l _) ?_
  simp only [List.flatten_cons, List.flatten_nil, List.append_nil, List.append_assoc]

/-- After the first stretch: the sort permutation. -/
theorem A_perm (c : Dev nD) :
    A0 m c (Proc.devRef .tc main_v1) = Cert.Spec.sortPerm (m ((c : Thread nD τ).loc main_arg2)) := by
  dsimp only [A0]
  simp only [hostOps0, hostOps0_1, hostOps0_2, hostOps0_3, hostOps0_4, hostOps0_5, hostOps0_6, List.flatten_cons, List.flatten_nil, List.append_nil, List.cons_append, List.nil_append]
  after_results_simp
  simp only [cast_eq]
  rfl

/-- After the first stretch: the expert ids in sorted order. -/
theorem A_seg (c : Dev nD) :
    A0 m c (Proc.devRef .tc main_v8) = Cert.Spec.seg (m ((c : Thread nD τ).loc main_arg2)) := by
  dsimp only [A0]
  simp only [hostOps0, hostOps0_1, hostOps0_2, hostOps0_3, hostOps0_4, hostOps0_5, hostOps0_6, List.flatten_cons, List.flatten_nil, List.append_nil, List.cons_append, List.nil_append]
  after_results_simp
  simp only [cast_eq]
  rfl

/-- After the first stretch: the token rows in sorted order. -/
theorem A_rows (c : Dev nD) :
    A0 m c (Proc.devRef .tc main_v16) = Cert.Spec.rows (m ((c : Thread nD τ).loc main_arg0)) (m ((c : Thread nD τ).loc main_arg2)) := by
  dsimp only [A0]
  simp only [hostOps0, hostOps0_1, hostOps0_2, hostOps0_3, hostOps0_4, hostOps0_5, hostOps0_6, List.flatten_cons, List.flatten_nil, List.append_nil, List.cons_append, List.nil_append]
  after_results_simp
  simp only [cast_eq]
  rfl

/-- After the first stretch: the per-expert counts. -/
theorem A_counts (c : Dev nD) :
    A0 m c (Proc.devRef .tc main_v26) = Cert.Spec.counts (m ((c : Thread nD τ).loc main_arg2)) := by
  dsimp only [A0]
  simp only [hostOps0, hostOps0_1, hostOps0_2, hostOps0_3, hostOps0_4, hostOps0_5, hostOps0_6, List.flatten_cons, List.flatten_nil, List.append_nil, List.cons_append, List.nil_append]
  after_results_simp
  simp only [cast_eq]
  rfl

/-! ## Before the region: the second stretch, from any contents -/

section Second
variable (W : Valuation τ sig (Elt Ideal))

/-- The second stretch keeps the sort permutation. -/
theorem B_perm : StableHlo.after (hostOps0_7 ++ hostOps0_8) W (Proc.devRef .tc main_v1) = W (Proc.devRef .tc main_v1) := by
  simp only [hostOps0_7, hostOps0_8, List.cons_append, List.nil_append]
  after_results_simp

/-- The second stretch keeps the expert ids. -/
theorem B_seg : StableHlo.after (hostOps0_7 ++ hostOps0_8) W (Proc.devRef .tc main_v8) = W (Proc.devRef .tc main_v8) := by
  simp only [hostOps0_7, hostOps0_8, List.cons_append, List.nil_append]
  after_results_simp

/-- From the expert ids and the counts, the second stretch computes the slots. -/
theorem B_slot (a2 : (⟨S1024x8, .i32⟩ : BufTy).Contents (Elt Ideal))
    (h8 : W (Proc.devRef .tc main_v8) = Cert.Spec.seg a2) (h26 : W (Proc.devRef .tc main_v26) = Cert.Spec.counts a2) :
    StableHlo.after (hostOps0_7 ++ hostOps0_8) W (Proc.devRef .tc main_v37) = Cert.Spec.slot a2 := by
  simp only [hostOps0_7, hostOps0_8, List.cons_append, List.nil_append]
  after_results_simp
  simp only [cast_eq]
  rw [h8, h26]
  rfl

/-- From the expert ids, the sorted rows and the counts, the second stretch computes the per-expert token blocks: the
    reference's dispatch, into the narrower format's zero. -/
theorem B_buf (a0 : (⟨S1024x1024, .f32⟩ : BufTy).Contents (Elt Ideal)) (a2 : (⟨S1024x8, .i32⟩ : BufTy).Contents (Elt Ideal))
    (h8 : W (Proc.devRef .tc main_v8) = Cert.Spec.seg a2) (h16 : W (Proc.devRef .tc main_v16) = Cert.Spec.rows a0 a2)
    (h26 : W (Proc.devRef .tc main_v26) = Cert.Spec.counts a2) :
    StableHlo.after (hostOps0_7 ++ hostOps0_8) W (Proc.devRef .tc main_v53)
      = Cert.Spec.dispatch (constant (F := Ideal) S_ .bf16 0x0000#16) a0 a2 := by
  simp only [hostOps0_7, hostOps0_8, List.cons_append, List.nil_append]
  after_results_simp
  refine dispatch_of ?_ ?_ ?_
  · after_results_simp
    rw [h8]
    rfl
  · after_results_simp
    simp only [cast_eq]
    rw [h8, h26]
    rfl
  · rw [h16]
    rfl

end Second

/-! ## Before the region: the values the region and the lines after it find -/

/-- The sort permutation the region's surroundings use. -/
theorem pre_perm (c : Dev nD) :
    V m c main_v1 = Cert.Spec.sortPerm (m ((c : Thread nD τ).loc main_arg2)) :=
  (congrFun (V0_eq m c) _).trans ((B_perm _).trans (A_perm m c))

/-- The expert ids in sorted order. -/
theorem pre_seg (c : Dev nD) :
    V m c main_v8 = Cert.Spec.seg (m ((c : Thread nD τ).loc main_arg2)) :=
  (congrFun (V0_eq m c) _).trans ((B_seg _).trans (A_seg m c))

/-- The slots in sorted order. -/
theorem pre_slot (c : Dev nD) :
    V m c main_v37 = Cert.Spec.slot (m ((c : Thread nD τ).loc main_arg2)) :=
  (congrFun (V0_eq m c) _).trans (B_slot _ _ (A_seg m c) (A_counts m c))

/-- The per-expert token blocks the region stages: the reference's dispatch, into the narrower format's zero. -/
theorem pre_buf (c : Dev nD) :
    V m c main_v53 = Cert.Spec.dispatch (constant (F := Ideal) S_ .bf16 0x0000#16)
      (m ((c : Thread nD τ).loc main_arg0)) (m ((c : Thread nD τ).loc main_arg2)) :=
  (congrFun (V0_eq m c) _).trans (B_buf _ _ _ (A_seg m c) (A_rows m c) (A_counts m c))

end Cert.KernelIdeal.HostRead

end
-- ==== Proof.KTail.lean ====
/-
  The kernel program's host operations after the region, read as values: they gather row k of their result from the
  region's output array at (expert, slot) of the k-th sorted copy and scatter it to row `sortPerm k` of a zero array —
  `Spec.combine` of the output array and of the expert ids, slots and sort permutation the operations before the region
  left; and they leave the sort permutation's buffer as it was.
-/
import proofs.«136024_j37752762532030_2_alg».proof.Proof.Gen.KernelIdeal.Frame
import proofs.«136024_j37752762532030_2_alg».proof.Proof.SpecHost
import Idealize.ShloMosaic.Lib.StableHlo.Run

set_option maxRecDepth 16384

noncomputable section

namespace Cert.KernelIdeal.HostRead

open Cert.KernelIdeal Cert.KernelIdeal.Facts₀ Cert.KernelIdeal.Gen Idealize.ShloMosaic Idealize.ShloMosaic.TcCoe
open Idealize.SL Idealize.SL.Sem Idealize.ShloMosaic.StableHlo
open Idealize.ShloMosaic.Pipeline (Dat)

variable (m : (ℓ : Loc nD τ sig) → Buf (Elt Ideal) ℓ)

attribute [local irreducible] Host.sort2 Host.gather Host.scatter Host.reduceWindow

/-- The tail's operations from any contents `W`. -/
theorem tail_fold (W : Valuation τ sig (Elt Ideal)) :
    after (hostOps1 (F := Ideal)) W (Proc.devRef .tc main_v76)
      = Cert.Spec.combine (W (Proc.devRef .tc main_v54)) (W (Proc.devRef .tc main_v8)) (W (Proc.devRef .tc main_v37))
          (W (Proc.devRef .tc main_v1)) := by
  after_results_simp
  rfl

theorem tail_fold_perm (W : Valuation τ sig (Elt Ideal)) :
    after (hostOps1 (F := Ideal)) W (Proc.devRef .tc main_v1) = W (Proc.devRef .tc main_v1) := by
  after_results_simp

theorem tail_out (dats : (p : Fin 1) → (c : Dev nD) → Dat τ (Elt Ideal) Unit ℕ (UR sig nD τ) ℕ (cfgs p) c) (c : Dev nD) :
    Pipeline.afterTail₀ cfgs dats 0 (V0 m) [hostOps1] c main_v76
      = Cert.Spec.combine ((dats 0 c).arrAt 3 cfg0.N) (V m c main_v8) (V m c main_v37) (V m c main_v1) := by
  unfold Pipeline.afterTail₀
  show after hostOps1 _ (Proc.devRef .tc main_v76) = _
  rw [tail_fold,
    Pipeline.withArrays_of_ne _ c (V0 m c) _ main_v8 (by exact (by decide : ∀ w, Pipeline.arrRef spec0 w ≠ main_v8)),
    Pipeline.withArrays_of_ne _ c (V0 m c) _ main_v37 (by exact (by decide : ∀ w, Pipeline.arrRef spec0 w ≠ main_v37)),
    Pipeline.withArrays_of_ne _ c (V0 m c) _ main_v1 (by exact (by decide : ∀ w, Pipeline.arrRef spec0 w ≠ main_v1))]
  exact congrArg (fun o => Cert.Spec.combine o (V m c main_v8) (V m c main_v37) (V m c main_v1))
    (Pipeline.withArrays_arr spec0 launch0.win.arr_inj c _ _ 3)

theorem tail_perm (dats : (p : Fin 1) → (c : Dev nD) → Dat τ (Elt Ideal) Unit ℕ (UR sig nD τ) ℕ (cfgs p) c) (c : Dev nD) :
    Pipeline.afterTail₀ cfgs dats 0 (V0 m) [hostOps1] c main_v1 = V m c main_v1 := by
  unfold Pipeline.afterTail₀
  show after hostOps1 _ (Proc.devRef .tc main_v1) = _
  rw [tail_fold_perm,
    Pipeline.withArrays_of_ne _ c (V0 m c) _ main_v1 (by exact (by decide : ∀ w, Pipeline.arrRef spec0 w ≠ main_v1))]

end Cert.KernelIdeal.HostRead

end
-- ==== Proof.LibBatchDotRead.lean ====
/-
  A batched matrix product read at an index, over the extended reals, for any dimension record with the stated axes:
  both operands carry the batch on their first axis, the left operand's last axis is contracted with the right
  operand's middle axis, and the result lists batch, left row, right column. On the host, with no accumulator, entry
  (g, a, b) is the plain sum over the shared axis of the products of the entries of batch g; the contraction's index
  type has one coordinate, and the sum is re-indexed by it.
-/
import Idealize.ShloMosaic.PureOps.Ideal.Laws
import Idealize.ShloMosaic.Lib.ValueIdx

noncomputable section
open scoped BigOperators
open Idealize.ShloMosaic Idealize.ShloMosaic.ValueIdx

namespace Cert.BatchDotRead

/-- A host product with batch axis 0 on both sides that contracts the last axis of the left operand with the middle
    axis of the right, read at an index: within batch `g`, row `a` of the left operand times column `b` of the
    right. -/
theorem dotGeneral_batch_row_col_apply {e m k n : Nat} {φ₁ φ₂ : FTy}
    (d : DotDims ⟨3, ![e, m, k]⟩ ⟨3, ![e, k, n]⟩ ⟨3, ![e, m, n]⟩)
    (hlc : d.lhsContracting = [2]) (hrc : d.rhsContracting = [1])
    (hln : d.lhsNonContracting = [1]) (hrn : d.rhsNonContracting = [2])
    (hlb : d.lhsBatch = [0]) (hrb : d.rhsBatch = [0])
    (prec : Option ContractPrecision) (sched : HostSchedule)
    (A : FVec Ideal ⟨3, ![e, m, k]⟩ φ₁) (B : FVec Ideal ⟨3, ![e, k, n]⟩ φ₂) (g : Fin e) (a : Fin m) (b : Fin n) :
    FloatOps.dotGeneral d prec sched A B (ix3 g a b)
      = ∑ c : Fin k, A (ix3 g a c) * B (ix3 g c b) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 3), i = 0 → ((ix3 g a b ⟨i, h⟩).val : Nat) = g.val := by
    intro i h hi; subst hi; rfl
  have key1 : ∀ (i : Nat) (h : i < 3), i = 1 → ((ix3 g a b ⟨i, h⟩).val : Nat) = a.val := by
    intro i h hi; subst hi; rfl
  have key2 : ∀ (i : Nat) (h : i < 3), i = 2 → ((ix3 g a b ⟨i, h⟩).val : Nat) = b.val := by
    intro i h hi; subst hi; rfl
  rw [Ideal.dotGeneral_apply, ← Equiv.sum_comp (contrEquiv1 d k hr1 hs).symm]
  refine Finset.sum_congr rfl fun c _ => ?_
  have c2 := contrEquiv1_symm_val d k hr1 hs c
  have l2 : d.lhsIdx (ix3 g a b) ((contrEquiv1 d k hr1 hs).symm c) = ix3 g a c := by
    funext ax; apply Fin.ext
    match ax with
    | ⟨0, _⟩ => simp [DotDims.lhsIdx, hlc, hln, hlb]; exact key0 _ _ (by simp [hlb, hln])
    | ⟨1, _⟩ => simp [DotDims.lhsIdx, hlc, hln, hlb]; exact key1 _ _ (by simp [hlb, hln])
    | ⟨2, _⟩ => exact (d.lhsIdx_val_of_single hlc _ _).trans c2
  have r2 : d.rhsIdx (ix3 g a b) ((contrEquiv1 d k hr1 hs).symm c) = ix3 g c b := by
    funext ax; apply Fin.ext
    match ax with
    | ⟨0, _⟩ => simp [DotDims.rhsIdx, hrc, hrn, hrb]; exact key0 _ _ (by simp [hlb, hln, hrn, hrb])
    | ⟨1, _⟩ => exact (d.rhsIdx_val_of_single hrc _ _).trans c2
    | ⟨2, _⟩ => simp [DotDims.rhsIdx, hrc, hrn, hrb]; exact key2 _ _ (by simp [hlb, hln, hrn, hrb])
  rw [l2, r2]

end Cert.BatchDotRead

end
-- ==== Proof.MidRead.lean ====
/-
  The reference's grouped computation, read at one entry: for expert e, entry (c, h) of the 64-expert value is that
  expert's output entry (c, h) as the specification writes it, from the expert's own token block and weights.

  Read at an entry, a batched product is the sum over the shared axis of the products of the entries of that batch, a
  half-width slice along the last axis reads the column shifted by its offset (0 for the gate half, 512 for the up
  half), the splat of the word 0x3F800000 is the number 1, and x · (1 / (1 + e^(−x))) is x times the logistic of x.
-/
import proofs.«136024_j37752762532030_2_alg».proof.Proof.Spec
import proofs.«136024_j37752762532030_2_alg».proof.Proof.LibBatchDotRead
import Idealize.ShloMosaic.Lib.ValueLayout

noncomputable section
open scoped BigOperators
open Idealize.ShloMosaic Idealize.ShloMosaic.ValueIdx

namespace Cert.MidRead

open Cert.ReferenceIdeal Cert.ReferenceIdeal.Facts₀

/-- The f32 word 0x3F800000 is the number 1. -/
theorem ofBits_one_f32 : Ideal.ofBits .f32 0x3F800000#32 = 1 := by
  simp [Ideal.ofBits, Ideal.ieee, -EReal.coe_mul]; norm_num

/-- A rank-3 array cut along its last axis from `o` reads, at `(a, b, j)`, the source at `(a, b, k)` with `k = o + j`. -/
theorem slice3_axis2_apply {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- The first batched product read at (e, c, n): row c of expert e's token block against column n of its packed
    weights. -/
theorem gateUp_apply (b : FVec Ideal S64x256x1024 .f32) (a3 : FVec Ideal S64x1024x1024 .f32)
    (e : Fin 64) (c : Fin 256) (n : Fin 1024) :
    Host.dotGeneral (F := Ideal) (φ₁ := .f32) (φ₂ := .f32) dot_S64x256x1024_S64x1024x1024_S64x256x1024_2_1_1_2_0_0 none b a3
        (ix3 e c n)
      = ∑ k : Fin 1024, b (ix3 e c k) * a3 (ix3 e k n) :=
  Cert.BatchDotRead.dotGeneral_batch_row_col_apply _ rfl rfl rfl rfl rfl rfl none .single b a3 e c n

/-- The activation read at an index: x · (1 / (1 + e^(−x))), the 1 a splat constant, is x times the logistic of x. -/
theorem act_apply (g : FVec Ideal S64x256x512 .f32) (j : S64x256x512.Idx) :
    mulf g (Host.divf (broadcastInDim S64x256x512 ![] bcast_S_S64x256x512 (constant (F := Ideal) S_ .f32 0x3F800000#32))
        (addf (broadcastInDim S64x256x512 ![] bcast_S_S64x256x512 (constant (F := Ideal) S_ .f32 0x3F800000#32))
          (Host.exp (Host.negf g)))) j
      = g j * Ideal.logistic (g j) := by
  have h1 : broadcastInDim S64x256x512 ![] bcast_S_S64x256x512 (constant (F := Ideal) S_ .f32 0x3F800000#32) j
      = (1 : Ideal .f32) :=
    (broadcastInDim_apply _ _ _ j ix0 (fun a => a.elim0)).trans ofBits_one_f32
  simp only [mulf, Host.divf, addf, Host.exp, Host.negf]
  rw [h1]
  rfl

theorem mid_apply (b : FVec Ideal Cert.ReferenceIdeal.S64x256x1024 .f32) (a3 : FVec Ideal Cert.ReferenceIdeal.S64x1024x1024 .f32)
    (a4 : FVec Ideal Cert.ReferenceIdeal.S64x512x1024 .f32) (e : Fin 64) (c : Fin 256) (h : Fin 1024) :
    Cert.Spec.mid b a3 a4 (ix3 e c h)
      = Cert.Spec.swiglu (fun c k => b (ix3 e c k)) (fun k n => a3 (ix3 e k n)) (fun i h => a4 (ix3 e i h)) c h := by
  unfold Cert.Spec.mid
  -- the second batched product: the sum over the 512 middle columns
  refine (Cert.BatchDotRead.dotGeneral_batch_row_col_apply _ rfl rfl rfl rfl rfl rfl none .single _ a4 e c h).trans ?_
  unfold Cert.Spec.swiglu
  refine Finset.sum_congr rfl fun i _ => ?_
  -- the gate half reads column i of the first product, the up half column 512 + i
  have hg := (slice3_axis2_apply 0 _ slices_S64x256x1024_S64x256x512_0_0_0 e c i (Cert.Spec.gateCol i)
    (Nat.zero_add _).symm).trans (gateUp_apply b a3 e c (Cert.Spec.gateCol i))
  have hu := (slice3_axis2_apply 512 _ slices_S64x256x1024_S64x256x512_0_0_512 e c i (Cert.Spec.upCol i)
    rfl).trans (gateUp_apply b a3 e c (Cert.Spec.upCol i))
  refine congrArg₂ (· * ·) ?_ rfl
  refine (congrArg₂ (· * ·) (act_apply _ _) hu).trans ?_
  rw [hg]

end Cert.MidRead

end
-- ==== Proof.Bridge.lean ====
/-
  The two programs' middles are one function. The kernel's output array is, index by index, the expert function of slab
  `e` of the token blocks and the weights (`Blocks.outArr`); the reference's grouped products around the gated
  activation (`Spec.mid`) read at (e, c, h) are the same expert function of the same slabs. And the two zeros the
  dispatch buffers are filled with — the narrower format's and the wider format's — are both the real number 0.
-/
import proofs.«136024_j37752762532030_2_alg».proof.Proof.KBlocks
import proofs.«136024_j37752762532030_2_alg».proof.Proof.MidRead
import Idealize.ShloMosaic.PureOps.Ideal.Laws
import Idealize.ShloMosaic.Lib.IdealHost

noncomputable section

namespace Cert.Bridge

open Idealize.ShloMosaic Idealize.ShloMosaic.ValueIdx

attribute [local irreducible] Cert.Spec.swiglu

/-- The kernel's output array is the reference's middle applied to the same three arrays. -/
theorem out_eq_mid (b : (⟨Cert.KernelIdeal.S64x256x1024, .bf16⟩ : BufTy).Contents (Elt Ideal))
    (a3 : (⟨Cert.KernelIdeal.S64x1024x1024, .f32⟩ : BufTy).Contents (Elt Ideal))
    (a4 : (⟨Cert.KernelIdeal.S64x512x1024, .f32⟩ : BufTy).Contents (Elt Ideal)) :
    Cert.KernelIdeal.Blocks.outArr b a3 a4 = Cert.Spec.mid b a3 a4 := by
  funext j
  obtain ⟨e, c, h, rfl⟩ : ∃ (e : Fin 64) (c : Fin 256) (h : Fin 1024), j = ix3 e c h := ⟨j 0, j 1, j 2, eq_ix3 j⟩
  exact (Cert.KernelIdeal.Blocks.outArr_ix3 b a3 a4 e c h).trans (Cert.MidRead.mid_apply b a3 a4 e c h).symm

/-- The narrower format's zero word and the wider format's zero word denote the same scalar, 0. -/
theorem zero_eq : (constant (F := Ideal) Cert.KernelIdeal.S_ .bf16 0x0000#16 : Cert.KernelIdeal.S_.Idx → EReal)
    = constant (F := Ideal) Cert.ReferenceIdeal.S_ .f32 0x00000000#32 := by
  funext i
  show Ideal.ofBits .bf16 0x0000#16 = Ideal.ofBits .f32 0x00000000#32
  rw [Ideal.ofBits_zero_bf16, Ideal.ofBits_zero_f32]

end Cert.Bridge

end
-- ==== Proof.Result.lean ====
/-
  The layer's result as one function of the argument arrays: dispatch the token rows to the experts' blocks, run the 64
  experts, and return the rows to token order.
-/
import proofs.«136024_j37752762532030_2_alg».proof.Proof.Spec
import proofs.«136024_j37752762532030_2_alg».proof.Proof.SpecHost

noncomputable section

namespace Cert.Spec

open Cert.ReferenceIdeal Idealize.ShloMosaic

/-- The expanded outputs, one row per (token, choice) copy, from the hidden states `a0`, the expert ids `a2`, the packed
    gate/up weights `a3` and the down weights `a4`. -/
def result (a0 : (⟨S1024x1024, .f32⟩ : BufTy).Contents (Elt Ideal)) (a2 : (⟨S1024x8, .i32⟩ : BufTy).Contents (Elt Ideal))
    (a3 : (⟨S64x1024x1024, .f32⟩ : BufTy).Contents (Elt Ideal)) (a4 : (⟨S64x512x1024, .f32⟩ : BufTy).Contents (Elt Ideal)) :
    (⟨S8192x1024, .f32⟩ : BufTy).Contents (Elt Ideal) :=
  combine (mid (dispatch (constant (F := Ideal) S_ .f32 0x00000000#32) a0 a2) a3 a4) (seg a2) (slot a2) (sortPerm a2)

end Cert.Spec

end
-- ==== Proof.KerValue.lean ====
/-
  The kernel program's run as a value: every weakly fair execution ends with the result buffer at `Spec.result` of the
  argument arrays, the returned permutation at `Spec.sortPerm` of the expert ids, and the arguments unchanged. The
  host operations after the region return the region's output array to token order; that array is the experts' outputs
  of the dispatch buffer the host operations before the region built (the reference's, up to the spelling of zero);
  and the experts' outputs are the reference's middle of the same arrays.
-/
import proofs.«136024_j37752762532030_2_alg».proof.Proof.KBlocks
import proofs.«136024_j37752762532030_2_alg».proof.Proof.KHost
import proofs.«136024_j37752762532030_2_alg».proof.Proof.KTail
import proofs.«136024_j37752762532030_2_alg».proof.Proof.Bridge
import proofs.«136024_j37752762532030_2_alg».proof.Proof.Result

set_option maxRecDepth 16384

noncomputable section

namespace Cert.KernelIdeal.KerValue

open Cert.KernelIdeal Cert.KernelIdeal.Gen Idealize.ShloMosaic Idealize.ShloMosaic.TcCoe Idealize.SL Idealize.SL.Sem

variable (m : (ℓ : Loc nD τ sig) → Buf (Elt Ideal) ℓ)

attribute [local irreducible] Cert.Spec.swiglu Cert.Spec.mid Cert.Spec.combine Cert.Spec.dispatch Cert.Spec.seg Cert.Spec.slot Cert.Spec.sortPerm

/-- What the host operations after the region leave in the result buffer. -/
theorem out_eq (c : Dev nD) :
    Pipeline.afterTail₀ cfgs (dats m) 0 (V0 m) [hostOps1] c main_v76
      = Cert.Spec.result (m ((c : Thread nD τ).loc main_arg0)) (m ((c : Thread nD τ).loc main_arg2))
          (m ((c : Thread nD τ).loc main_arg3)) (m ((c : Thread nD τ).loc main_arg4)) := by
  rw [Cert.KernelIdeal.HostRead.tail_out m (dats m) c, Cert.KernelIdeal.Blocks.final m c,
    Cert.KernelIdeal.HostRead.pre_buf m c, Cert.KernelIdeal.HostRead.pre_seg m c, Cert.KernelIdeal.HostRead.pre_slot m c,
    Cert.KernelIdeal.HostRead.pre_perm m c, V_main_arg3 m c, V_main_arg4 m c, Cert.Bridge.out_eq_mid, Cert.Bridge.zero_eq]
  rfl

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v76)
          = Cert.Spec.result (m ((c.tc : Thread nD τ).loc main_arg0)) (m ((c.tc : Thread nD τ).loc main_arg2))
              (m ((c.tc : Thread nD τ).loc main_arg3)) (m ((c.tc : Thread nD τ).loc main_arg4))
      ∧ r.2.mem ((c.tc : Thread nD τ).loc main_v1) = Cert.Spec.sortPerm (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).2 main_v76 (Pipeline.mem_restRefs_of main_v76 (by decide) (by decide))).trans (out_eq m c),
      ((h c).2 main_v1 (Pipeline.mem_restRefs_of main_v1 (by decide) (by decide))).trans
        ((Cert.KernelIdeal.HostRead.tail_perm m (dats m) c).trans (Cert.KernelIdeal.HostRead.pre_perm m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c)))⟩)
    (run_main m ρ)

end Cert.KernelIdeal.KerValue

end
-- ==== Proof.RefOps.lean ====
/-
  The reference's @main as three lists of its host operations, in program order, each module-local function's
  operations standing at its call over that call's buffers: the dispatch (sort the token copies by expert, count,
  offset, scatter into the per-expert buffer), the experts' arithmetic (two grouped products around the gated
  activation), and the return to token order (gather back, scatter by the sort permutation).
-/
import proofs.«136024_j37752762532030_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The dispatch: 92 operations, through the scatter that fills the per-expert buffer. -/
abbrev opsA : List (HloOp τ sig (Elt F)) :=
  [ StableHlo.reshape main_arg2 main_v0 rfl shapeCasts_S1024x8_S8192,
    StableHlo.TRef.nullary (.of main_call0_v0 : StableHlo.TRef sig ⟨S8192, .i32⟩) (iotaInDim S8192 32 0),
    StableHlo.TRef.binary (.of main_v0 : StableHlo.TRef sig ⟨S8192, .i32⟩) (.of main_call0_v0 : StableHlo.TRef sig ⟨S8192, .i32⟩) (.of main_call0_v1_0 : StableHlo.TRef sig ⟨S8192, .i32⟩) (fun x y => (Host.sort2 S8192 0 comparator_i32_i32_d0 x y).1),
    StableHlo.TRef.binary (.of main_v0 : StableHlo.TRef sig ⟨S8192, .i32⟩) (.of main_call0_v0 : StableHlo.TRef sig ⟨S8192, .i32⟩) (.of main_v1 : StableHlo.TRef sig ⟨S8192, .i32⟩) (fun x y => (Host.sort2 S8192 0 comparator_i32_i32_d0 x y).2),
    StableHlo.nullary main_c (constantI S_ 32 0#32),
    StableHlo.unary main_c main_v2 (broadcastInDim S8192 ![] bcast_S_S8192 : (⟨S_, .i32⟩ : BufTy).Contents (Elt F) → (⟨S8192, .i32⟩ : BufTy).Contents (Elt F)),
    StableHlo.binary main_v1 main_v2 main_v3 (cmpi .slt : (⟨S8192, .i32⟩ : BufTy).Contents (Elt F) → (⟨S8192, .i32⟩ : BufTy).Contents (Elt F) → (⟨S8192, .i1⟩ : BufTy).Contents (Elt F)),
    StableHlo.nullary main_c_0 (constantI S_ 32 8192#32),
    StableHlo.unary main_c_0 main_v4 (broadcastInDim S8192 ![] bcast_S_S8192 : (⟨S_, .i32⟩ : BufTy).Contents (Elt F) → (⟨S8192, .i32⟩ : BufTy).Contents (Elt F)),
    StableHlo.binary main_v1 main_v4 main_v5 (addi : (⟨S8192, .i32⟩ : BufTy).Contents (Elt F) → (⟨S8192, .i32⟩ : BufTy).Contents (Elt F) → (⟨S8192, .i32⟩ : BufTy).Contents (Elt F)),
    StableHlo.ternary main_v3 main_v5 main_v1 main_v6 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v6 main_v7 (broadcastInDim S8192x1 ![0] bcast_S8192_S8192x1_0 : (⟨S8192, .i32⟩ : BufTy).Contents (Elt F) → (⟨S8192x1, .i32⟩ : BufTy).Contents (Elt F)),
    StableHlo.binary main_v0 main_v7 main_v8 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    StableHlo.nullary main_c_1 (constantI S_ 32 8#32),
    StableHlo.TRef.unary (.of main_c_1 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S8192, .i32⟩) (broadcastInDim S8192 ![] bcast_S_S8192),
    StableHlo.TRef.binary (.of main_v1 : StableHlo.TRef sig ⟨S8192, .i32⟩) (.of main_call1_v1 : StableHlo.TRef sig ⟨S8192, .i32⟩) (.of main_call1_v2 : StableHlo.TRef sig ⟨S8192, .i32⟩) Host.divsi,
    StableHlo.TRef.unary (.of main_v1 : StableHlo.TRef sig ⟨S8192, .i32⟩) (.of main_call1_v3 : StableHlo.TRef sig ⟨S8192, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S8192, .i32⟩) (broadcastInDim S8192 ![] bcast_S_S8192),
    StableHlo.TRef.binary (.of main_call1_v3 : StableHlo.TRef sig ⟨S8192, .i32⟩) (.of main_call1_v5 : StableHlo.TRef sig ⟨S8192, .i32⟩) (.of main_call1_v6 : StableHlo.TRef sig ⟨S8192, .i1⟩) (cmpi .ne),
    StableHlo.TRef.unary (.of main_call1_v0 : StableHlo.TRef sig ⟨S_, .i32⟩) (.of main_call1_v7 : StableHlo.TRef sig ⟨S8192, .i32⟩) (broadcastInDim S8192 ![] bcast_S_S8192),
    StableHlo.TRef.binary (.of main_v1 : StableHlo.TRef sig ⟨S8192, .i32⟩) (.of main_call1_v7 : StableHlo.TRef sig ⟨S8192, .i32⟩) (.of main_call1_v8 : StableHlo.TRef sig ⟨S8192, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S8192, .i32⟩) (broadcastInDim S8192 ![] bcast_S_S8192),
    StableHlo.TRef.binary (.of main_call1_v8 : StableHlo.TRef sig ⟨S8192, .i32⟩) (.of main_call1_v9 : StableHlo.TRef sig ⟨S8192, .i32⟩) (.of main_call1_v10 : StableHlo.TRef sig ⟨S8192, .i1⟩) (cmpi .ne),
    StableHlo.TRef.binary (.of main_call1_v6 : StableHlo.TRef sig ⟨S8192, .i1⟩) (.of main_call1_v10 : StableHlo.TRef sig ⟨S8192, .i1⟩) (.of main_call1_v11 : StableHlo.TRef sig ⟨S8192, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S8192, .i32⟩) (broadcastInDim S8192 ![] bcast_S_S8192),
    StableHlo.TRef.binary (.of main_call1_v2 : StableHlo.TRef sig ⟨S8192, .i32⟩) (.of main_call1_v12 : StableHlo.TRef sig ⟨S8192, .i32⟩) (.of main_call1_v13 : StableHlo.TRef sig ⟨S8192, .i32⟩) subi,
    StableHlo.TRef.ternary (.of main_call1_v11 : StableHlo.TRef sig ⟨S8192, .i1⟩) (.of main_call1_v13 : StableHlo.TRef sig ⟨S8192, .i32⟩) (.of main_call1_v2 : StableHlo.TRef sig ⟨S8192, .i32⟩) (.of main_v9 : StableHlo.TRef sig ⟨S8192, .i32⟩) select,
    StableHlo.nullary main_c_2 (constantI S_ 32 0#32),
    StableHlo.unary main_c_2 main_v10 (broadcastInDim S8192 ![] bcast_S_S8192 : (⟨S_, .i32⟩ : BufTy).Contents (Elt F) → (⟨S8192, .i32⟩ : BufTy).Contents (Elt F)),
    StableHlo.binary main_v9 main_v10 main_v11 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 1024#32),
    StableHlo.unary main_c_3 main_v12 (broadcastInDim S8192 ![] bcast_S_S8192 : (⟨S_, .i32⟩ : BufTy).Contents (Elt F) → (⟨S8192, .i32⟩ : BufTy).Contents (Elt F)),
    StableHlo.binary main_v9 main_v12 main_v13 (addi : (⟨S8192, .i32⟩ : BufTy).Contents (Elt F) → (⟨S8192, .i32⟩ : BufTy).Contents (Elt F) → (⟨S8192, .i32⟩ : BufTy).Contents (Elt F)),
    StableHlo.ternary main_v11 main_v13 main_v9 main_v14 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v14 main_v15 (broadcastInDim S8192x1 ![0] bcast_S8192_S8192x1_0 : (⟨S8192, .i32⟩ : BufTy).Contents (Elt F) → (⟨S8192x1, .i32⟩ : BufTy).Contents (Elt F)),
    StableHlo.binary main_arg0 main_v15 main_v16 ((fun x i => Host.gather gather_S1024x1024_S8192x1_S8192x1024_1_0_n_n_0_1_11024 x i) : (⟨S1024x1024, .f32⟩ : BufTy).Contents (Elt F) → (⟨S8192x1, .i32⟩ : BufTy).Contents (Elt F) → (⟨S8192x1024, .f32⟩ : BufTy).Contents (Elt F)),
    StableHlo.nullary main_c_4 (constantI S_ 32 0#32),
    StableHlo.unary main_c_4 main_v17 (broadcastInDim S64 ![] bcast_S_S64 : (⟨S_, .i32⟩ : BufTy).Contents (Elt F) → (⟨S64, .i32⟩ : BufTy).Contents (Elt F)),
    StableHlo.nullary main_c_5 (constantI S_ 32 0#32),
    StableHlo.TRef.unary (.of main_c_5 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S8192, .i32⟩) (broadcastInDim S8192 ![] bcast_S_S8192),
    StableHlo.TRef.binary (.of main_call2_v1 : StableHlo.TRef sig ⟨S8192, .i32⟩) (.of main_v0 : StableHlo.TRef sig ⟨S8192, .i32⟩) (.of main_v18 : StableHlo.TRef sig ⟨S8192, .i32⟩) maxsi,
    StableHlo.nullary main_c_6 (constantI S_ 32 0#32),
    StableHlo.unary main_c_6 main_v19 (broadcastInDim S8192 ![] bcast_S_S8192 : (⟨S_, .i32⟩ : BufTy).Contents (Elt F) → (⟨S8192, .i32⟩ : BufTy).Contents (Elt F)),
    StableHlo.binary main_v18 main_v19 main_v20 (cmpi .slt : (⟨S8192, .i32⟩ : BufTy).Contents (Elt F) → (⟨S8192, .i32⟩ : BufTy).Contents (Elt F) → (⟨S8192, .i1⟩ : BufTy).Contents (Elt F)),
    StableHlo.nullary main_c_7 (constantI S_ 32 64#32),
    StableHlo.unary main_c_7 main_v21 (broadcastInDim S8192 ![] bcast_S_S8192 : (⟨S_, .i32⟩ : BufTy).Contents (Elt F) → (⟨S8192, .i32⟩ : BufTy).Contents (Elt F)),
    StableHlo.binary main_v18 main_v21 main_v22 (addi : (⟨S8192, .i32⟩ : BufTy).Contents (Elt F) → (⟨S8192, .i32⟩ : BufTy).Contents (Elt F) → (⟨S8192, .i32⟩ : BufTy).Contents (Elt F)),
    StableHlo.ternary main_v20 main_v22 main_v18 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v23 main_v24 (broadcastInDim S8192x1 ![0] bcast_S8192_S8192x1_0 : (⟨S8192, .i32⟩ : BufTy).Contents (Elt F) → (⟨S8192x1, .i32⟩ : BufTy).Contents (Elt F)),
    StableHlo.nullary main_c_8 (constantI S_ 32 1#32),
    StableHlo.unary main_c_8 main_v25 (broadcastInDim S8192 ![] bcast_S_S8192 : (⟨S_, .i32⟩ : BufTy).Contents (Elt F) → (⟨S8192, .i32⟩ : BufTy).Contents (Elt F)),
    StableHlo.ternary main_v17 main_v24 main_v25 main_v26 ((fun x i u => Host.scatter scatter_S64_S8192x1_S8192_n_0_0_1 IntOp.addi x i u) : (⟨S64, .i32⟩ : BufTy).Contents (Elt F) → (⟨S8192x1, .i32⟩ : BufTy).Contents (Elt F) → (⟨S8192, .i32⟩ : BufTy).Contents (Elt F) → (⟨S64, .i32⟩ : BufTy).Contents (Elt F)),
    StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v26 : StableHlo.TRef sig ⟨S64, .i32⟩) (.of main_call3_call0_v0 : StableHlo.TRef sig ⟨S_, .i32⟩) (.of main_v27 : StableHlo.TRef sig ⟨S64, .i32⟩) (fun x v => Host.reduceWindow IntOp.addi ![64] ![1] ![63] ![0] x v reduceWindows_S64_S64_w64s1p63_0 h_S_),
    StableHlo.binary main_v27 main_v26 main_v28 (subi : (⟨S64, .i32⟩ : BufTy).Contents (Elt F) → (⟨S64, .i32⟩ : BufTy).Contents (Elt F) → (⟨S64, .i32⟩ : BufTy).Contents (Elt F)),
    StableHlo.nullary main_v29 (iotaInDim S8192 32 0),
    StableHlo.nullary main_c_9 (constantI S_ 32 0#32),
    StableHlo.unary main_c_9 main_v30 (broadcastInDim S8192 ![] bcast_S_S8192 : (⟨S_, .i32⟩ : BufTy).Contents (Elt F) → (⟨S8192, .i32⟩ : BufTy).Contents (Elt F)),
    StableHlo.binary main_v8 main_v30 main_v31 (cmpi .slt : (⟨S8192, .i32⟩ : BufTy).Contents (Elt F) → (⟨S8192, .i32⟩ : BufTy).Contents (Elt F) → (⟨S8192, .i1⟩ : BufTy).Contents (Elt F)),
    StableHlo.nullary main_c_10 (constantI S_ 32 64#32),
    StableHlo.unary main_c_10 main_v32 (broadcastInDim S8192 ![] bcast_S_S8192 : (⟨S_, .i32⟩ : BufTy).Contents (Elt F) → (⟨S8192, .i32⟩ : BufTy).Contents (Elt F)),
    StableHlo.binary main_v8 main_v32 main_v33 (addi : (⟨S8192, .i32⟩ : BufTy).Contents (Elt F) → (⟨S8192, .i32⟩ : BufTy).Contents (Elt F) → (⟨S8192, .i32⟩ : BufTy).Contents (Elt F)),
    StableHlo.ternary main_v31 main_v33 main_v8 main_v34 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v34 main_v35 (broadcastInDim S8192x1 ![0] bcast_S8192_S8192x1_0 : (⟨S8192, .i32⟩ : BufTy).Contents (Elt F) → (⟨S8192x1, .i32⟩ : BufTy).Contents (Elt F)),
    StableHlo.binary main_v28 main_v35 main_v36 ((fun x i => Host.gather gather_S64_S8192x1_S8192_n_0_n_n_0_1_1 x i) : (⟨S64, .i32⟩ : BufTy).Contents (Elt F) → (⟨S8192x1, .i32⟩ : BufTy).Contents (Elt F) → (⟨S8192, .i32⟩ : BufTy).Contents (Elt F)),
    StableHlo.binary main_v29 main_v36 main_v37 (subi : (⟨S8192, .i32⟩ : BufTy).Contents (Elt F) → (⟨S8192, .i32⟩ : BufTy).Contents (Elt F) → (⟨S8192, .i32⟩ : BufTy).Contents (Elt F)),
    StableHlo.nullary main_cst (constant S_ .f32 0x00000000#32),
    StableHlo.unary main_cst main_v38 (broadcastInDim S64x256x1024 ![] bcast_S_S64x256x1024 : (⟨S_, .f32⟩ : BufTy).Contents (Elt F) → (⟨S64x256x1024, .f32⟩ : BufTy).Contents (Elt F)),
    StableHlo.nullary main_c_11 (constantI S_ 32 0#32),
    StableHlo.unary main_c_11 main_v39 (broadcastInDim S8192 ![] bcast_S_S8192 : (⟨S_, .i32⟩ : BufTy).Contents (Elt F) → (⟨S8192, .i32⟩ : BufTy).Contents (Elt F)),
    StableHlo.binary main_v8 main_v39 main_v40 (cmpi .slt : (⟨S8192, .i32⟩ : BufTy).Contents (Elt F) → (⟨S8192, .i32⟩ : BufTy).Contents (Elt F) → (⟨S8192, .i1⟩ : BufTy).Contents (Elt F)),
    StableHlo.nullary main_c_12 (constantI S_ 32 64#32),
    StableHlo.unary main_c_12 main_v41 (broadcastInDim S8192 ![] bcast_S_S8192 : (⟨S_, .i32⟩ : BufTy).Contents (Elt F) → (⟨S8192, .i32⟩ : BufTy).Contents (Elt F)),
    StableHlo.binary main_v8 main_v41 main_v42 (addi : (⟨S8192, .i32⟩ : BufTy).Contents (Elt F) → (⟨S8192, .i32⟩ : BufTy).Contents (Elt F) → (⟨S8192, .i32⟩ : BufTy).Contents (Elt F)),
    StableHlo.ternary main_v40 main_v42 main_v8 main_v43 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_13 (constantI S_ 32 0#32),
    StableHlo.unary main_c_13 main_v44 (broadcastInDim S8192 ![] bcast_S_S8192 : (⟨S_, .i32⟩ : BufTy).Contents (Elt F) → (⟨S8192, .i32⟩ : BufTy).Contents (Elt F)),
    StableHlo.binary main_v37 main_v44 main_v45 (cmpi .slt : (⟨S8192, .i32⟩ : BufTy).Contents (Elt F) → (⟨S8192, .i32⟩ : BufTy).Contents (Elt F) → (⟨S8192, .i1⟩ : BufTy).Contents (Elt F)),
    StableHlo.nullary main_c_14 (constantI S_ 32 256#32),
    StableHlo.unary main_c_14 main_v46 (broadcastInDim S8192 ![] bcast_S_S8192 : (⟨S_, .i32⟩ : BufTy).Contents (Elt F) → (⟨S8192, .i32⟩ : BufTy).Contents (Elt F)),
    StableHlo.binary main_v37 main_v46 main_v47 (addi : (⟨S8192, .i32⟩ : BufTy).Contents (Elt F) → (⟨S8192, .i32⟩ : BufTy).Contents (Elt F) → (⟨S8192, .i32⟩ : BufTy).Contents (Elt F)),
    StableHlo.ternary main_v45 main_v47 main_v37 main_v48 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v43 main_v49 (broadcastInDim S8192x1 ![0] bcast_S8192_S8192x1_0 : (⟨S8192, .i32⟩ : BufTy).Contents (Elt F) → (⟨S8192x1, .i32⟩ : BufTy).Contents (Elt F)),
    StableHlo.unary main_v48 main_v50 (broadcastInDim S8192x1 ![0] bcast_S8192_S8192x1_0 : (⟨S8192, .i32⟩ : BufTy).Contents (Elt F) → (⟨S8192x1, .i32⟩ : BufTy).Contents (Elt F)),
    StableHlo.binary main_v49 main_v50 main_v51 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.ternary main_v38 main_v51 main_v16 main_v52 ((fun x i u => Host.scatter scatter_S64x256x1024_S8192x2_S8192x1024_1_01_01_1 (fun _ b => b) x i u) : (⟨S64x256x1024, .f32⟩ : BufTy).Contents (Elt F) → (⟨S8192x2, .i32⟩ : BufTy).Contents (Elt F) → (⟨S8192x1024, .f32⟩ : BufTy).Contents (Elt F) → (⟨S64x256x1024, .f32⟩ : BufTy).Contents (Elt F)) ]
theorem opsA_sub : (opsA : List (HloOp τ sig (Elt F))).Forall fun op => op.bufs ⊆ tcRefs τ sig :=
  ⟨reshape_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., binary_bufs_sub .., nullary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩

/-- The experts' arithmetic: 14 operations. -/
abbrev opsM : List (HloOp τ sig (Elt F)) :=
  [ StableHlo.binary main_v52 main_arg3 main_v53 ((fun l r => Host.dotGeneral dot_S64x256x1024_S64x1024x1024_S64x256x1024_2_1_1_2_0_0 none l r) : (⟨S64x256x1024, .f32⟩ : BufTy).Contents (Elt F) → (⟨S64x1024x1024, .f32⟩ : BufTy).Contents (Elt F) → (⟨S64x256x1024, .f32⟩ : BufTy).Contents (Elt F)),
    StableHlo.unary main_v53 main_v54 ((extractStridedSlice S64x256x512 ![0, 0, 0] · slices_S64x256x1024_S64x256x512_0_0_0) : (⟨S64x256x1024, .f32⟩ : BufTy).Contents (Elt F) → (⟨S64x256x512, .f32⟩ : BufTy).Contents (Elt F)),
    StableHlo.unary main_v53 main_v55 ((extractStridedSlice S64x256x512 ![0, 0, 512] · slices_S64x256x1024_S64x256x512_0_0_512) : (⟨S64x256x1024, .f32⟩ : BufTy).Contents (Elt F) → (⟨S64x256x512, .f32⟩ : BufTy).Contents (Elt F)),
    StableHlo.TRef.unary (.of main_v54 : StableHlo.TRef sig ⟨S64x256x512, .f32⟩) (.of main_call4_v0 : StableHlo.TRef sig ⟨S64x256x512, .f32⟩) Host.negf,
    StableHlo.TRef.unary (.of main_call4_v0 : StableHlo.TRef sig ⟨S64x256x512, .f32⟩) (.of main_call4_v1 : StableHlo.TRef sig ⟨S64x256x512, .f32⟩) Host.exp,
    StableHlo.TRef.nullary (.of main_call4_cst : StableHlo.TRef sig ⟨S_, .f32⟩) (constant S_ .f32 0x3F800000#32),
    StableHlo.TRef.unary (.of main_call4_cst : StableHlo.TRef sig ⟨S_, .f32⟩) (.of main_call4_v2 : StableHlo.TRef sig ⟨S64x256x512, .f32⟩) (broadcastInDim S64x256x512 ![] bcast_S_S64x256x512),
    StableHlo.TRef.binary (.of main_call4_v2 : StableHlo.TRef sig ⟨S64x256x512, .f32⟩) (.of main_call4_v1 : StableHlo.TRef sig ⟨S64x256x512, .f32⟩) (.of main_call4_v3 : StableHlo.TRef sig ⟨S64x256x512, .f32⟩) addf,
    StableHlo.TRef.nullary (.of main_call4_cst_0 : StableHlo.TRef sig ⟨S_, .f32⟩) (constant S_ .f32 0x3F800000#32),
    StableHlo.TRef.unary (.of main_call4_cst_0 : StableHlo.TRef sig ⟨S_, .f32⟩) (.of main_call4_v4 : StableHlo.TRef sig ⟨S64x256x512, .f32⟩) (broadcastInDim S64x256x512 ![] bcast_S_S64x256x512),
    StableHlo.TRef.binary (.of main_call4_v4 : StableHlo.TRef sig ⟨S64x256x512, .f32⟩) (.of main_call4_v3 : StableHlo.TRef sig ⟨S64x256x512, .f32⟩) (.of main_call4_v5 : StableHlo.TRef sig ⟨S64x256x512, .f32⟩) Host.divf,
    StableHlo.TRef.binary (.of main_v54 : StableHlo.TRef sig ⟨S64x256x512, .f32⟩) (.of main_call4_v5 : StableHlo.TRef sig ⟨S64x256x512, .f32⟩) (.of main_v56 : StableHlo.TRef sig ⟨S64x256x512, .f32⟩) mulf,
    StableHlo.binary main_v56 main_v55 main_v57 (mulf : (⟨S64x256x512, .f32⟩ : BufTy).Contents (Elt F) → (⟨S64x256x512, .f32⟩ : BufTy).Contents (Elt F) → (⟨S64x256x512, .f32⟩ : BufTy).Contents (Elt F)),
    StableHlo.binary main_v57 main_arg4 main_v58 ((fun l r => Host.dotGeneral dot_S64x256x512_S64x512x1024_S64x256x1024_2_1_1_2_0_0 none l r) : (⟨S64x256x512, .f32⟩ : BufTy).Contents (Elt F) → (⟨S64x512x1024, .f32⟩ : BufTy).Contents (Elt F) → (⟨S64x256x1024, .f32⟩ : BufTy).Contents (Elt F)) ]
theorem opsM_sub : (opsM : List (HloOp τ sig (Elt F))).Forall fun op => op.bufs ⊆ tcRefs τ sig :=
  ⟨binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub ..⟩

/-- The return to token order: 29 operations. -/
abbrev opsT : List (HloOp τ sig (Elt F)) :=
  [ StableHlo.nullary main_c_15 (constantI S_ 32 0#32),
    StableHlo.unary main_c_15 main_v59 (broadcastInDim S8192 ![] bcast_S_S8192 : (⟨S_, .i32⟩ : BufTy).Contents (Elt F) → (⟨S8192, .i32⟩ : BufTy).Contents (Elt F)),
    StableHlo.binary main_v8 main_v59 main_v60 (cmpi .slt : (⟨S8192, .i32⟩ : BufTy).Contents (Elt F) → (⟨S8192, .i32⟩ : BufTy).Contents (Elt F) → (⟨S8192, .i1⟩ : BufTy).Contents (Elt F)),
    StableHlo.nullary main_c_16 (constantI S_ 32 64#32),
    StableHlo.unary main_c_16 main_v61 (broadcastInDim S8192 ![] bcast_S_S8192 : (⟨S_, .i32⟩ : BufTy).Contents (Elt F) → (⟨S8192, .i32⟩ : BufTy).Contents (Elt F)),
    StableHlo.binary main_v8 main_v61 main_v62 (addi : (⟨S8192, .i32⟩ : BufTy).Contents (Elt F) → (⟨S8192, .i32⟩ : BufTy).Contents (Elt F) → (⟨S8192, .i32⟩ : BufTy).Contents (Elt F)),
    StableHlo.ternary main_v60 main_v62 main_v8 main_v63 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_17 (constantI S_ 32 0#32),
    StableHlo.unary main_c_17 main_v64 (broadcastInDim S8192 ![] bcast_S_S8192 : (⟨S_, .i32⟩ : BufTy).Contents (Elt F) → (⟨S8192, .i32⟩ : BufTy).Contents (Elt F)),
    StableHlo.binary main_v37 main_v64 main_v65 (cmpi .slt : (⟨S8192, .i32⟩ : BufTy).Contents (Elt F) → (⟨S8192, .i32⟩ : BufTy).Contents (Elt F) → (⟨S8192, .i1⟩ : BufTy).Contents (Elt F)),
    StableHlo.nullary main_c_18 (constantI S_ 32 256#32),
    StableHlo.unary main_c_18 main_v66 (broadcastInDim S8192 ![] bcast_S_S8192 : (⟨S_, .i32⟩ : BufTy).Contents (Elt F) → (⟨S8192, .i32⟩ : BufTy).Contents (Elt F)),
    StableHlo.binary main_v37 main_v66 main_v67 (addi : (⟨S8192, .i32⟩ : BufTy).Contents (Elt F) → (⟨S8192, .i32⟩ : BufTy).Contents (Elt F) → (⟨S8192, .i32⟩ : BufTy).Contents (Elt F)),
    StableHlo.ternary main_v65 main_v67 main_v37 main_v68 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v63 main_v69 (broadcastInDim S8192x1 ![0] bcast_S8192_S8192x1_0 : (⟨S8192, .i32⟩ : BufTy).Contents (Elt F) → (⟨S8192x1, .i32⟩ : BufTy).Contents (Elt F)),
    StableHlo.unary main_v68 main_v70 (broadcastInDim S8192x1 ![0] bcast_S8192_S8192x1_0 : (⟨S8192, .i32⟩ : BufTy).Contents (Elt F) → (⟨S8192x1, .i32⟩ : BufTy).Contents (Elt F)),
    StableHlo.binary main_v69 main_v70 main_v71 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v58 main_v71 main_v72 ((fun x i => Host.gather gather_S64x256x1024_S8192x2_S8192x1024_1_01_n_n_01_1_111024 x i) : (⟨S64x256x1024, .f32⟩ : BufTy).Contents (Elt F) → (⟨S8192x2, .i32⟩ : BufTy).Contents (Elt F) → (⟨S8192x1024, .f32⟩ : BufTy).Contents (Elt F)),
    StableHlo.nullary main_cst_19 (constant S_ .f32 0x00000000#32),
    StableHlo.unary main_cst_19 main_v73 (broadcastInDim S8192x1024 ![] bcast_S_S8192x1024 : (⟨S_, .f32⟩ : BufTy).Contents (Elt F) → (⟨S8192x1024, .f32⟩ : BufTy).Contents (Elt F)),
    StableHlo.nullary main_c_20 (constantI S_ 32 0#32),
    StableHlo.unary main_c_20 main_v74 (broadcastInDim S8192 ![] bcast_S_S8192 : (⟨S_, .i32⟩ : BufTy).Contents (Elt F) → (⟨S8192, .i32⟩ : BufTy).Contents (Elt F)),
    StableHlo.binary main_v1 main_v74 main_v75 (cmpi .slt : (⟨S8192, .i32⟩ : BufTy).Contents (Elt F) → (⟨S8192, .i32⟩ : BufTy).Contents (Elt F) → (⟨S8192, .i1⟩ : BufTy).Contents (Elt F)),
    StableHlo.nullary main_c_21 (constantI S_ 32 8192#32),
    StableHlo.unary main_c_21 main_v76 (broadcastInDim S8192 ![] bcast_S_S8192 : (⟨S_, .i32⟩ : BufTy).Contents (Elt F) → (⟨S8192, .i32⟩ : BufTy).Contents (Elt F)),
    StableHlo.binary main_v1 main_v76 main_v77 (addi : (⟨S8192, .i32⟩ : BufTy).Contents (Elt F) → (⟨S8192, .i32⟩ : BufTy).Contents (Elt F) → (⟨S8192, .i32⟩ : BufTy).Contents (Elt F)),
    StableHlo.ternary main_v75 main_v77 main_v1 main_v78 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v78 main_v79 (broadcastInDim S8192x1 ![0] bcast_S8192_S8192x1_0 : (⟨S8192, .i32⟩ : BufTy).Contents (Elt F) → (⟨S8192x1, .i32⟩ : BufTy).Contents (Elt F)),
    StableHlo.ternary main_v73 main_v79 main_v72 main_v80 ((fun x i u => Host.scatter scatter_S8192x1024_S8192x1_S8192x1024_1_0_0_1 (fun _ b => b) x i u) : (⟨S8192x1024, .f32⟩ : BufTy).Contents (Elt F) → (⟨S8192x1, .i32⟩ : BufTy).Contents (Elt F) → (⟨S8192x1024, .f32⟩ : BufTy).Contents (Elt F) → (⟨S8192x1024, .f32⟩ : BufTy).Contents (Elt F)) ]
theorem opsT_sub : (opsT : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

end Cert.ReferenceIdeal.RefRun

end
-- ==== Proof.RefRun.lean ====
/-
  The reference's run read back. @main is the straight line of its 136 host operations, so every weakly fair execution
  ends with each buffer at the fold of the operations over the launch contents. The fold is read in three stretches:
  the return to token order as `Spec.combine` of what it finds in the experts' output, the expert ids, the slots and
  the sort permutation; the experts' arithmetic as `Spec.mid` of the dispatch buffer and the two weight arrays; the
  dispatch as the functions of `SpecHost` of the argument arrays. No stretch writes an argument array.
-/
import proofs.«136024_j37752762532030_2_alg».proof.Proof.RefOps
import proofs.«136024_j37752762532030_2_alg».proof.Proof.Spec
import proofs.«136024_j37752762532030_2_alg».proof.Proof.SpecHost
import Idealize.ShloMosaic.Lib.Pipeline.Regions

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- Folding two stretches one after the other is folding their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- @main is the three stretches in order. -/
theorem main_eq (c : Dev nD) : main (F := F) c = seq (opsA ++ (opsM ++ opsT)) := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (opsA ++ (opsM ++ opsT) : List (HloOp τ sig (Elt F))).Forall fun op => op.bufs ⊆ tcRefs τ sig :=
  List.forall_append.mpr ⟨opsA_sub, List.forall_append.mpr ⟨opsM_sub, opsT_sub⟩⟩

theorem opsA_fresh : (opsA : List (HloOp τ sig (Elt F))).Forall fun op => op.fresh = ∅ := by
  simp only [List.Forall]; repeat' constructor
theorem opsM_fresh : (opsM : List (HloOp τ sig (Elt F))).Forall fun op => op.fresh = ∅ := by
  simp only [List.Forall]; repeat' constructor
theorem opsT_fresh : (opsT : List (HloOp τ sig (Elt F))).Forall fun op => op.fresh = ∅ := by
  simp only [List.Forall]; repeat' constructor

theorem ops_fresh : ∀ op ∈ (opsA ++ (opsM ++ opsT) : List (HloOp τ sig (Elt F))), op.fresh = ∅ :=
  List.forall_iff_forall_mem.mp (List.forall_append.mpr ⟨opsA_fresh, List.forall_append.mpr ⟨opsM_fresh, opsT_fresh⟩⟩)

/-- Every weakly fair execution of @main terminates with each TensorCore buffer at the fold of the three stretches over
    the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsT (after opsM (after opsA (launchContents m c))) (b : DevRef τ sig) :=
  (θ_run defs _ _).mono (fun _ h c b => (h c b).trans (by rw [after_append, after_append]))
    (run_seq scopedRefs_eq scopedSems_eq defs main (fun _ => opsA ++ (opsM ++ opsT)) main_eq (fun _ => ops_sub) m ρ
      (fun _ => ops_fresh))

end Cert.ReferenceIdeal.RefRun

end
-- ==== Proof.RefRead.lean ====
/-
  The reference's three stretches read as values. From any contents `W`: the return to token order leaves its result at
  `Spec.combine` of the experts' output, the expert ids, the slots and the sort permutation found in `W`; the experts'
  arithmetic leaves `Spec.mid` of the dispatch buffer and the weights; the dispatch leaves the functions of the argument
  arrays that `SpecHost` names. A stretch leaves every buffer it does not write as it found it.
-/
import proofs.«136024_j37752762532030_2_alg».proof.Proof.RefOps
import proofs.«136024_j37752762532030_2_alg».proof.Proof.Spec
import proofs.«136024_j37752762532030_2_alg».proof.Proof.SpecHost

noncomputable section

namespace Cert.ReferenceIdeal.RefRead

open Cert.ReferenceIdeal Cert.ReferenceIdeal.Facts₀ Cert.ReferenceIdeal.RefRun Idealize.ShloMosaic Idealize.ShloMosaic.TcCoe Idealize.SL.Sem Idealize.ShloMosaic.StableHlo

/-- The zero the dispatch buffer is filled with. -/
abbrev zero32 : (⟨S_, .f32⟩ : BufTy).Contents (Elt Ideal) := constant (F := Ideal) S_ .f32 0x00000000#32

/-! ## The return to token order -/

theorem tail_out (W : Valuation τ sig (Elt Ideal)) :
    after (opsT (F := Ideal)) W (main_v80 : DevRef τ sig)
      = Cert.Spec.combine (W (main_v58 : DevRef τ sig)) (W (main_v8 : DevRef τ sig)) (W (main_v37 : DevRef τ sig)) (W (main_v1 : DevRef τ sig)) := by
  after_results_simp
  rfl

theorem tail_perm (W : Valuation τ sig (Elt Ideal)) :
    after (opsT (F := Ideal)) W (main_v1 : DevRef τ sig) = W (main_v1 : DevRef τ sig) := by
  after_results_simp

theorem tail_arg0 (W : Valuation τ sig (Elt Ideal)) :
    after (opsT (F := Ideal)) W (main_arg0 : DevRef τ sig) = W (main_arg0 : DevRef τ sig) := by after_results_simp
theorem tail_arg1 (W : Valuation τ sig (Elt Ideal)) :
    after (opsT (F := Ideal)) W (main_arg1 : DevRef τ sig) = W (main_arg1 : DevRef τ sig) := by after_results_simp
theorem tail_arg2 (W : Valuation τ sig (Elt Ideal)) :
    after (opsT (F := Ideal)) W (main_arg2 : DevRef τ sig) = W (main_arg2 : DevRef τ sig) := by after_results_simp
theorem tail_arg3 (W : Valuation τ sig (Elt Ideal)) :
    after (opsT (F := Ideal)) W (main_arg3 : DevRef τ sig) = W (main_arg3 : DevRef τ sig) := by after_results_simp
theorem tail_arg4 (W : Valuation τ sig (Elt Ideal)) :
    after (opsT (F := Ideal)) W (main_arg4 : DevRef τ sig) = W (main_arg4 : DevRef τ sig) := by after_results_simp

/-! ## The experts' arithmetic -/

theorem mid_out (W : Valuation τ sig (Elt Ideal)) :
    after (opsM (F := Ideal)) W (main_v58 : DevRef τ sig)
      = Cert.Spec.mid (W (main_v52 : DevRef τ sig)) (W (main_arg3 : DevRef τ sig)) (W (main_arg4 : DevRef τ sig)) := by
  after_results_simp
  rfl

theorem mid_seg (W : Valuation τ sig (Elt Ideal)) :
    after (opsM (F := Ideal)) W (main_v8 : DevRef τ sig) = W (main_v8 : DevRef τ sig) := by after_results_simp
theorem mid_slot (W : Valuation τ sig (Elt Ideal)) :
    after (opsM (F := Ideal)) W (main_v37 : DevRef τ sig) = W (main_v37 : DevRef τ sig) := by after_results_simp
theorem mid_perm (W : Valuation τ sig (Elt Ideal)) :
    after (opsM (F := Ideal)) W (main_v1 : DevRef τ sig) = W (main_v1 : DevRef τ sig) := by after_results_simp
theorem mid_arg0 (W : Valuation τ sig (Elt Ideal)) :
    after (opsM (F := Ideal)) W (main_arg0 : DevRef τ sig) = W (main_arg0 : DevRef τ sig) := by after_results_simp
theorem mid_arg1 (W : Valuation τ sig (Elt Ideal)) :
    after (opsM (F := Ideal)) W (main_arg1 : DevRef τ sig) = W (main_arg1 : DevRef τ sig) := by after_results_simp
theorem mid_arg2 (W : Valuation τ sig (Elt Ideal)) :
    after (opsM (F := Ideal)) W (main_arg2 : DevRef τ sig) = W (main_arg2 : DevRef τ sig) := by after_results_simp
theorem mid_arg3 (W : Valuation τ sig (Elt Ideal)) :
    after (opsM (F := Ideal)) W (main_arg3 : DevRef τ sig) = W (main_arg3 : DevRef τ sig) := by after_results_simp
theorem mid_arg4 (W : Valuation τ sig (Elt Ideal)) :
    after (opsM (F := Ideal)) W (main_arg4 : DevRef τ sig) = W (main_arg4 : DevRef τ sig) := by after_results_simp

end Cert.ReferenceIdeal.RefRead

end
-- ==== Proof.RefPre.lean ====
/-
  The reference's dispatch stretch read as values: from contents `V` it leaves the per-expert token blocks, the expert
  ids, the slots and the sort permutation at the functions of the argument arrays that `SpecHost` names, and writes no
  argument array. The token blocks are read in two steps: the scatter's three operands — the two index columns side by
  side and the gathered rows — each as its own function of the arguments, then the scatter of equal operands.
-/
import proofs.«136024_j37752762532030_2_alg».proof.Proof.RefOps
import proofs.«136024_j37752762532030_2_alg».proof.Proof.SpecHost

noncomputable section

namespace Cert.ReferenceIdeal.RefRead

open Cert.ReferenceIdeal Cert.ReferenceIdeal.Facts₀ Cert.ReferenceIdeal.RefRun Idealize.ShloMosaic Idealize.ShloMosaic.TcCoe Idealize.SL.Sem Idealize.ShloMosaic.StableHlo

attribute [local irreducible] Host.sort2 Host.gather Host.scatter Host.reduceWindow

theorem pre_perm (V : Valuation τ sig (Elt Ideal)) :
    after (opsA (F := Ideal)) V (main_v1 : DevRef τ sig) = Cert.Spec.sortPerm (V (main_arg2 : DevRef τ sig)) := by
  after_results_simp
  rfl

theorem pre_seg (V : Valuation τ sig (Elt Ideal)) :
    after (opsA (F := Ideal)) V (main_v8 : DevRef τ sig) = Cert.Spec.seg (V (main_arg2 : DevRef τ sig)) := by
  after_results_simp
  rfl

theorem pre_slot (V : Valuation τ sig (Elt Ideal)) :
    after (opsA (F := Ideal)) V (main_v37 : DevRef τ sig) = Cert.Spec.slot (V (main_arg2 : DevRef τ sig)) := by
  after_results_simp
  rfl

/-- A scatter of rows at index pairs, from operands equal to the dispatch's, is the dispatch. -/
theorem dispatch_of {z : (⟨S_, .f32⟩ : BufTy).Contents (Elt Ideal)} {a0 : (⟨S1024x1024, .f32⟩ : BufTy).Contents (Elt Ideal)}
    {a2 : (⟨S1024x8, .i32⟩ : BufTy).Contents (Elt Ideal)} {x y : (⟨S8192x1, .i32⟩ : BufTy).Contents (Elt Ideal)}
    {r : (⟨S8192x1024, .f32⟩ : BufTy).Contents (Elt Ideal)}
    (hx : x = Cert.Spec.segCol a2) (hy : y = Cert.Spec.slotCol a2) (hr : r = Cert.Spec.rows a0 a2) :
    Host.scatter scatter_S64x256x1024_S8192x2_S8192x1024_1_01_01_1 (fun _ b => b)
        (broadcastInDim S64x256x1024 ![] bcast_S_S64x256x1024 z : (⟨S64x256x1024, .f32⟩ : BufTy).Contents (Elt Ideal))
        (concatenate S8192x2 1 [⟨S8192x1, x⟩, ⟨S8192x1, y⟩] concatenates_S8192x1_S8192x1_S8192x2_d1) r
      = Cert.Spec.dispatch z a0 a2 := by
  subst hx hy hr
  rfl

theorem pre_buf (V : Valuation τ sig (Elt Ideal)) :
    after (opsA (F := Ideal)) V (main_v52 : DevRef τ sig)
      = Cert.Spec.dispatch (constant (F := Ideal) S_ .f32 0x00000000#32) (V (main_arg0 : DevRef τ sig)) (V (main_arg2 : DevRef τ sig)) := by
  after_results_simp
  refine dispatch_of ?_ ?_ ?_
  · after_results_simp
    rfl
  · after_results_simp
    rfl
  · rfl

theorem pre_arg0 (V : Valuation τ sig (Elt Ideal)) :
    after (opsA (F := Ideal)) V (main_arg0 : DevRef τ sig) = V (main_arg0 : DevRef τ sig) := by after_results_simp
theorem pre_arg1 (V : Valuation τ sig (Elt Ideal)) :
    after (opsA (F := Ideal)) V (main_arg1 : DevRef τ sig) = V (main_arg1 : DevRef τ sig) := by after_results_simp
theorem pre_arg2 (V : Valuation τ sig (Elt Ideal)) :
    after (opsA (F := Ideal)) V (main_arg2 : DevRef τ sig) = V (main_arg2 : DevRef τ sig) := by after_results_simp
theorem pre_arg3 (V : Valuation τ sig (Elt Ideal)) :
    after (opsA (F := Ideal)) V (main_arg3 : DevRef τ sig) = V (main_arg3 : DevRef τ sig) := by after_results_simp
theorem pre_arg4 (V : Valuation τ sig (Elt Ideal)) :
    after (opsA (F := Ideal)) V (main_arg4 : DevRef τ sig) = V (main_arg4 : DevRef τ sig) := by after_results_simp

end Cert.ReferenceIdeal.RefRead

end
-- ==== Proof.RefValue.lean ====
/-
  The reference's run as a value: every weakly fair execution ends with the result buffer at `Spec.result` of the
  argument arrays, the returned permutation at `Spec.sortPerm` of the expert ids, and the arguments unchanged — the three
  stretches' reads composed.
-/
import proofs.«136024_j37752762532030_2_alg».proof.Proof.RefRun
import proofs.«136024_j37752762532030_2_alg».proof.Proof.RefRead
import proofs.«136024_j37752762532030_2_alg».proof.Proof.RefPre
import proofs.«136024_j37752762532030_2_alg».proof.Proof.Result

noncomputable section

namespace Cert.ReferenceIdeal.RefValue

open Cert.ReferenceIdeal Cert.ReferenceIdeal.RefRun Cert.ReferenceIdeal.RefRead Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v80)
          = Cert.Spec.result (m ((c.tc : Thread nD τ).loc main_arg0)) (m ((c.tc : Thread nD τ).loc main_arg2))
              (m ((c.tc : Thread nD τ).loc main_arg3)) (m ((c.tc : Thread nD τ).loc main_arg4))
      ∧ r.2.mem ((c.tc : Thread nD τ).loc main_v1) = Cert.Spec.sortPerm (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      (h c main_v80).trans (by
        rw [tail_out, mid_out, mid_seg, mid_slot, mid_perm, pre_buf, pre_seg, pre_slot, pre_perm, pre_arg3, pre_arg4]
        rfl),
      (h c main_v1).trans (by rw [tail_perm, mid_perm, pre_perm]),
      (h c main_arg0).trans (by rw [tail_arg0, mid_arg0, pre_arg0]),
      (h c main_arg1).trans (by rw [tail_arg1, mid_arg1, pre_arg1]),
      (h c main_arg2).trans (by rw [tail_arg2, mid_arg2, pre_arg2]),
      (h c main_arg3).trans (by rw [tail_arg3, mid_arg3, pre_arg3]),
      (h c main_arg4).trans (by rw [tail_arg4, mid_arg4, pre_arg4])⟩)
    (run_fold m ρ)

end Cert.ReferenceIdeal.RefValue

end
-- ==== Proof.lean ====
/-
  A mixture-of-experts layer: the 8192 (token, choice) copies are sorted by expert, each expert's copies are placed in
  its 256-row block, every expert applies x ↦ (silu(x·W₁) ∘ (x·W₃))·W₂ to its block, and the rows are returned to token
  order. The kernel runs the 64 experts as one gridded region, one expert per grid point, on blocks held in the narrower
  float format; the reference runs them as two batched products around the gated activation. On the extended reals the
  change of format is the identity, a matrix product is the plain sum over the shared axis, and the activation
  x · logistic x is x · (1 / (1 + e^(−x))); the two programs' host operations before and after are the same operations
  of the same arrays. So both end at `Spec.result` of the argument arrays, with the same returned permutation
  (`KerValue.run`, `RefValue.run`), and from memories that agree on the arguments the results agree. No law used needs
  the inputs finite: the sums and products are only ever re-indexed, never redistributed. The ideal pass rewrote
  nothing, so the idealization's conjunct is trivial; the kernel programs' frames are the generated ones, and the
  reference's frame is its run with the result dropped.
-/
import proofs.«136024_j37752762532030_2_alg».proof.Defs
import proofs.«136024_j37752762532030_2_alg».proof.Proof.Gen.Kernel
import proofs.«136024_j37752762532030_2_alg».proof.Proof.Gen.Kernel.Frame
import proofs.«136024_j37752762532030_2_alg».proof.Proof.Gen.KernelIdeal
import proofs.«136024_j37752762532030_2_alg».proof.Proof.Gen.KernelIdeal.Frame
import proofs.«136024_j37752762532030_2_alg».proof.Proof.Gen.ReferenceIdeal
import proofs.«136024_j37752762532030_2_alg».proof.Proof.Gen.Pre_finite_inputs
import proofs.«136024_j37752762532030_2_alg».proof.Proof.KerValue
import proofs.«136024_j37752762532030_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.RefValue.run m ρ)

/-- From memories agreeing on the arguments both programs end at the same function of the arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => m ((c.tc : Thread Cert.KernelIdeal.nD Cert.KernelIdeal.τ).loc Cert.KernelIdeal.main_arg1),
    fun c => Cert.Spec.sortPerm (m ((c.tc : Thread Cert.KernelIdeal.nD Cert.KernelIdeal.τ).loc Cert.KernelIdeal.main_arg2)),
    ?_, ?_⟩
  · exact (θ_run Cert.KernelIdeal.defs _ _).mono
      (fun _ h c => ⟨(h c).2.2.1, (h c).1, (h c).2.2.2.1, (h c).2.1, (h c).2.2⟩)
      (Cert.KernelIdeal.KerValue.run m ρ)
  · refine (θ_run Cert.ReferenceIdeal.defs _ _).mono (fun _ h c => ?_) (Cert.ReferenceIdeal.RefValue.run m' ρ')
    obtain ⟨e0, e1, e2, e3, e4⟩ := hagree c
    obtain ⟨h80, h1, k0, k1, k2, k3, k4⟩ := h c
    refine ⟨k0.trans e0, ?_, k1.trans e1, ?_, k0, k1, k2, k3, k4⟩
    · rw [h80, e0, e2, e3, e4]
    · rw [h1, e2]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
